-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S2x3200000 : Shape := ⟨2, ![2, 3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : FVec F S512x16 .f32) (main_arg2 : FVec F S16 .f32) (main_arg3 : FVec F S16x40 .f32) (main_arg4 : FVec F S40 .f32) (main_arg5 : IVec S2x3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg3
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg4 main_v13 main_v16
-- ==== Kernel.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S2x3200000 : Shape := ⟨2, ![2, 3200000]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x40 : Shape := ⟨2, ![100000, 40]⟩
abbrev S10000x16 : Shape := ⟨2, ![10000, 16]⟩
abbrev S10000x40 : Shape := ⟨2, ![10000, 40]⟩
abbrev S3300000x40 : Shape := ⟨2, ![3300000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x40, .f32⟩
  | .hbm, ⟨4, _⟩ => ⟨S40, .f32⟩
  | .hbm, ⟨5, _⟩ => ⟨S2x3200000, .i32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x40, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x40, .f32⟩
  | .hbm, ⟨74, _⟩ => ⟨S3300000x1, .f32⟩
  | .hbm, ⟨75, _⟩ => ⟨S3300000x40, .f32⟩
  | .hbm, ⟨76, _⟩ => ⟨S3300000x40, .f32⟩
  | .hbm, ⟨77, _⟩ => ⟨S_, .f32⟩
  | .hbm, ⟨78, _⟩ => ⟨S100000x40, .f32⟩
  | .hbm, ⟨79, _⟩ => ⟨S3300000x1, .i32⟩
  | .hbm, ⟨80, _⟩ => ⟨S100000x40, .f32⟩
  | .hbm, ⟨81, _⟩ => ⟨S1x40, .f32⟩
  | .hbm, ⟨82, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x40, .f32⟩
  | .local _ .vmem, ⟨9, _⟩ => ⟨S10000x40, .f32⟩
  | .local _ .vmem, ⟨10, _⟩ => ⟨S10000x40, .f32⟩
  | .local _ .vmem, ⟨11, _⟩ => ⟨S10000x40, .f32⟩
  | .local _ .vmem, ⟨12, _⟩ => ⟨S10000x40, .f32⟩
  | .local _ .vmem, ⟨13, _⟩ => ⟨S1x40, .f32⟩
  | .local _ .vmem, ⟨14, _⟩ => ⟨S10000x40, .f32⟩
  | .local _ .vmem, ⟨15, _⟩ => ⟨S10000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x40_S16x40_0_0 : ∀ a, (![0, 0] : Fin 2 → Nat) a + S16x40.size a ≤ S16x40.size a
  h_S16x40 : 0 < S16x40.numel
  inb_S10000x40_S10000x40_0_0 : ∀ a, (![0, 0] : Fin 2 → Nat) a + S10000x40.size a ≤ S10000x40.size a
  h_S10000x40 : 0 < S10000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x40_S10000x40_1_0_0_1_n_n_wf : DotDims.WF S10000x16 S16x40 S10000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .f32 = 32 ∨ (Rect.block (s := S100000x40) S10000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S2x3200000 : Shape := ⟨2, ![2, 3200000]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 152
  | .vmem => 0
  | .smem => 0
  | _ => 0

abbrev hbmTy0_0 (i : Nat) : BufTy := match i % 128 with
  | 0 => ⟨S100000x512, .f32⟩
  | 1 => ⟨S512x16, .f32⟩
  | 2 => ⟨S16, .f32⟩
  | 3 => ⟨S16x40, .f32⟩
  | 4 => ⟨S40, .f32⟩
  | 5 => ⟨S2x3200000, .i32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .i1⟩
  | 69 => ⟨S_, .f32⟩
  | 70 => ⟨S100000x16, .f32⟩
  | 71 => ⟨S100000x16, .i1⟩
  | 72 => ⟨S_, .f32⟩
  | 73 => ⟨S_, .f32⟩
  | 74 => ⟨S100000x16, .f32⟩
  | 75 => ⟨S100000x16, .f32⟩
  | 76 => ⟨S100000x16, .f32⟩
  | 77 => ⟨S_, .f32⟩
  | 78 => ⟨S100000x16, .f32⟩
  | 79 => ⟨S100000x16, .f32⟩
  | 80 => ⟨S100000x16, .f32⟩
  | 81 => ⟨S100000x40, .f32⟩
  | 82 => ⟨S100000, .i32⟩
  | 83 => ⟨S3300000, .i32⟩
  | 84 => ⟨S3300000, .i32⟩
  | 85 => ⟨S_, .f32⟩
  | 86 => ⟨S3300000, .f32⟩
  | 87 => ⟨S_, .f32⟩
  | 88 => ⟨S100000, .f32⟩
  | 89 => ⟨S3300000x1, .i32⟩
  | 90 => ⟨S100000, .f32⟩
  | 91 => ⟨S_, .f32⟩
  | 92 => ⟨S100000, .f32⟩
  | 93 => ⟨S100000, .i1⟩
  | 94 => ⟨S100000, .f32⟩
  | 95 => ⟨S_, .f32⟩
  | 96 => ⟨S_, .f32⟩
  | 97 => ⟨S100000, .f32⟩
  | 98 => ⟨S100000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000, .f32⟩
  | 117 => ⟨S3300000, .f32⟩
  | 118 => ⟨S_, .i32⟩
  | 119 => ⟨S3300000, .i32⟩
  | 120 => ⟨S3300000, .i1⟩
  | 121 => ⟨S_, .i32⟩
  | 122 => ⟨S3300000, .i32⟩
  | 123 => ⟨S3300000, .i32⟩
  | 124 => ⟨S3300000, .i32⟩
  | 125 => ⟨S3300000x1, .i32⟩
  | 126 => ⟨S3300000x40, .f32⟩
  | 127 => ⟨S3300000x1, .f32⟩
  | _ => ⟨S100000x512, .f32⟩

abbrev hbmTy0_1 (i : Nat) : BufTy := match i % 128 with
  | 0 => ⟨S3300000x40, .f32⟩
  | 1 => ⟨S3300000x40, .f32⟩
  | 2 => ⟨S_, .f32⟩
  | 3 => ⟨S100000x40, .f32⟩
  | 4 => ⟨S3300000x1, .i32⟩
  | 5 => ⟨S100000x40, .f32⟩
  | 6 => ⟨S1x40, .f32⟩
  | 7 => ⟨S100000x40, .f32⟩
  | 8 => ⟨S100000x40, .f32⟩
  | 9 => ⟨S_, .f32⟩
  | 10 => ⟨S100000, .f32⟩
  | 11 => ⟨S_, .f32⟩
  | 12 => ⟨S100000, .f32⟩
  | 13 => ⟨S100000, .f32⟩
  | 14 => ⟨S100000x1, .f32⟩
  | 15 => ⟨S100000x40, .f32⟩
  | 16 => ⟨S100000x40, .f32⟩
  | 17 => ⟨S100000x40, .f32⟩
  | 18 => ⟨S_, .f32⟩
  | 19 => ⟨S100000, .f32⟩
  | 20 => ⟨S100000x1, .f32⟩
  | 21 => ⟨S100000x1, .f32⟩
  | 22 => ⟨S100000x40, .f32⟩
  | 23 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_cst_0 : Ref sig .tc := ⟨.hbm, 69, rfl⟩
abbrev main_call1_v2 : Ref sig .tc := ⟨.hbm, 70, rfl⟩
abbrev main_call1_v3 : Ref sig .tc := ⟨.hbm, 71, rfl⟩
abbrev main_call1_cst_1 : Ref sig .tc := ⟨.hbm, 72, rfl⟩
abbrev main_call1_call0_v0 : Ref sig .tc := ⟨.hbm, 73, rfl⟩
abbrev main_call1_call0_v1 : Ref sig .tc := ⟨.hbm, 74, rfl⟩
abbrev main_call1_v4 : Ref sig .tc := ⟨.hbm, 75, rfl⟩
abbrev main_call1_v5 : Ref sig .tc := ⟨.hbm, 76, rfl⟩
abbrev main_call1_cst_2 : Ref sig .tc := ⟨.hbm, 77, rfl⟩
abbrev main_call1_v6 : Ref sig .tc := ⟨.hbm, 78, rfl⟩
abbrev main_call1_v7 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_9 : Ref sig .tc := ⟨.hbm, 85, rfl⟩
abbrev main_v52 : Ref sig .tc := ⟨.hbm, 86, rfl⟩
abbrev main_cst_10 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_11 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_12 : Ref sig .tc := ⟨.hbm, 95, rfl⟩
abbrev main_call2_v0 : Ref sig .tc := ⟨.hbm, 96, rfl⟩
abbrev main_call2_v1 : Ref sig .tc := ⟨.hbm, 97, rfl⟩
abbrev main_v59 : Ref sig .tc := ⟨.hbm, 98, rfl⟩
abbrev main_c_13 : Ref sig .tc := ⟨.hbm, 99, rfl⟩
abbrev main_v60 : Ref sig .tc := ⟨.hbm, 100, rfl⟩
abbrev main_v61 : Ref sig .tc := ⟨.hbm, 101, rfl⟩
abbrev main_c_14 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_c_15 : Ref sig .tc := ⟨.hbm, 108, rfl⟩
abbrev main_v67 : Ref sig .tc := ⟨.hbm, 109, rfl⟩
abbrev main_v68 : Ref sig .tc := ⟨.hbm, 110, rfl⟩
abbrev main_c_16 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_c_17 : Ref sig .tc := ⟨.hbm, 118, rfl⟩
abbrev main_v75 : Ref sig .tc := ⟨.hbm, 119, rfl⟩
abbrev main_v76 : Ref sig .tc := ⟨.hbm, 120, rfl⟩
abbrev main_c_18 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_19 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_call3_cst : Ref sig .tc := ⟨.hbm, 137, rfl⟩
abbrev main_call3_v0 : Ref sig .tc := ⟨.hbm, 138, rfl⟩
abbrev main_call3_cst_0 : Ref sig .tc := ⟨.hbm, 139, rfl⟩
abbrev main_call3_v1 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_v5 : Ref sig .tc := ⟨.hbm, 144, rfl⟩
abbrev main_call3_v6 : Ref sig .tc := ⟨.hbm, 145, rfl⟩
abbrev main_call3_cst_1 : Ref sig .tc := ⟨.hbm, 146, rfl⟩
abbrev main_call3_v7 : Ref sig .tc := ⟨.hbm, 147, rfl⟩
abbrev main_call3_v8 : Ref sig .tc := ⟨.hbm, 148, rfl⟩
abbrev main_call3_v9 : Ref sig .tc := ⟨.hbm, 149, rfl⟩
abbrev main_call3_v10 : Ref sig .tc := ⟨.hbm, 150, rfl⟩
abbrev main_v91 : Ref sig .tc := ⟨.hbm, 151, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The idealized kernel program's run with its result named: every weakly fair execution from a memory with zero
  counters terminates, nothing faulting, the argument arrays unchanged, and the result array holding what the last
  region's write-backs leave — the fold of the program's host stretches and regions from the launch memory, read at
  the result buffer.
-/
import proofs.«167873_j25907242729900_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments from the launch, its last thread state read against the final state: the result buffer at
    the last boundary's contents, each argument as launched. -/
theorem run_result : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.Stages.lean ====
/-
  The host stages the two programs share, each as ONE function of its operands, so that neither side is ever opened:
  the edge list's two endpoint vectors (each row of the edge array followed by one self-loop per node), the wrap of a
  negative index by the node count, the degree of every node (a scatter-add of ones at the target endpoints), the
  symmetric normalization  norm[e] = dinv[src e] · dinv[dst e]  with  dinv = 1/√deg  where deg > 0 and 0 elsewhere,
  and the aggregation  out[n, :] = Σ_{e : dst e = n} h[src e, :] · norm[e]  (a gather of rows, a scaling, a scatter-add)
  for feature widths 16 and 40.
-/
import proofs.«167873_j25907242729900_2_alg».proof.ReferenceIdeal
import proofs.«167873_j25907242729900_2_alg».proof.Proof.Gen.ReferenceIdeal

noncomputable section

namespace Cert.GcnStages

open Cert.ReferenceIdeal Cert.ReferenceIdeal.Facts₀ Idealize.ShloMosaic

variable {F : FTy → Type} [FloatOps F]

/-- Row 0 of the edge array: the source endpoint of every edge. -/
def row0 (e : (⟨S2x3200000, .i32⟩ : BufTy).Contents (Elt F)) : (⟨S3200000, .i32⟩ : BufTy).Contents (Elt F) :=
  shapeCast S3200000 (extractStridedSlice S1x3200000 ![0, 0] e slices_S2x3200000_S1x3200000_0_0)
    shapeCasts_S1x3200000_S3200000

/-- Row 1 of the edge array: the target endpoint of every edge. -/
def row1 (e : (⟨S2x3200000, .i32⟩ : BufTy).Contents (Elt F)) : (⟨S3200000, .i32⟩ : BufTy).Contents (Elt F) :=
  shapeCast S3200000 (extractStridedSlice S1x3200000 ![1, 0] e slices_S2x3200000_S1x3200000_1_0)
    shapeCasts_S1x3200000_S3200000

/-- An endpoint vector followed by one self-loop per node: the nodes 0 … 99999 themselves. -/
def withLoops (row : (⟨S3200000, .i32⟩ : BufTy).Contents (Elt F)) : (⟨S3300000, .i32⟩ : BufTy).Contents (Elt F) :=
  concatenate S3300000 0 [⟨S3200000, row⟩, ⟨S100000, iotaInDim S100000 32 0⟩] concatenates_S3200000_S100000_S3300000_d0

/-- The source endpoints with the self-loops. -/
def srcOf (e : (⟨S2x3200000, .i32⟩ : BufTy).Contents (Elt F)) : (⟨S3300000, .i32⟩ : BufTy).Contents (Elt F) :=
  withLoops (row0 e)

/-- The target endpoints with the self-loops. -/
def dstOf (e : (⟨S2x3200000, .i32⟩ : BufTy).Contents (Elt F)) : (⟨S3300000, .i32⟩ : BufTy).Contents (Elt F) :=
  withLoops (row1 e)

/-- A negative index counts from the end: i + 100000 where i < 0, i itself elsewhere. -/
def wrap (s : (⟨S3300000, .i32⟩ : BufTy).Contents (Elt F)) : (⟨S3300000, .i32⟩ : BufTy).Contents (Elt F) :=
  select (cmpi .slt s (broadcastInDim S3300000 ![] bcast_S_S3300000 (constantI S_ 32 0#32)))
    (addi s (broadcastInDim S3300000 ![] bcast_S_S3300000 (constantI S_ 32 100000#32))) s

/-- The degree of every node: ones summed at the target endpoints. -/
def degOf (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 d)
    (broadcastInDim S3300000 ![] bcast_S_S3300000 (constant S_ .f32 0x3F800000#32))

/-- 1/√deg where deg > 0, and 0 elsewhere. -/
def dinvOf (deg : (⟨S100000, .f32⟩ : BufTy).Contents (Elt F)) : (⟨S100000, .f32⟩ : BufTy).Contents (Elt F) :=
  select (cmpf .ogt deg (broadcastInDim S100000 ![] bcast_S_S100000 (constant S_ .f32 0x00000000#32)))
    (Host.rsqrt deg)
    (broadcastInDim S100000 ![] bcast_S_S100000 (id (constant S_ .f32 0x00000000#32)))

/-- The symmetric normalization of every edge: dinv at its source times dinv at its target. -/
def normOf (s d : (⟨S3300000, .i32⟩ : BufTy).Contents (Elt F)) : (⟨S3300000, .f32⟩ : BufTy).Contents (Elt F) :=
  mulf
    (Host.gather gather_S100000_S3300000x1_S3300000_n_0_n_n_0_1_1 (dinvOf (degOf d))
      (broadcastInDim S3300000x1 ![0] bcast_S3300000_S3300000x1_0 (wrap s)))
    (Host.gather gather_S100000_S3300000x1_S3300000_n_0_n_n_0_1_1 (dinvOf (degOf d))
      (broadcastInDim S3300000x1 ![0] bcast_S3300000_S3300000x1_0 (wrap d)))

/-- The aggregation at feature width 16: rows gathered at the sources, scaled by the edge's normalization, summed at
    the targets. -/
def agg16 (h : (⟨S100000x16, .f32⟩ : BufTy).Contents (Elt F)) (nrm : (⟨S3300000, .f32⟩ : BufTy).Contents (Elt F))
    (s d : (⟨S3300000, .i32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 d)
    (mulf
      (Host.gather gather_S100000x16_S3300000x1_S3300000x16_1_0_n_n_0_1_116 h
        (broadcastInDim S3300000x1 ![0] bcast_S3300000_S3300000x1_0 (wrap s)))
      (broadcastInDim S3300000x16 ![0, 1] bcast_S3300000x1_S3300000x16_0_1
        (broadcastInDim S3300000x1 ![0] bcast_S3300000_S3300000x1_0 nrm)))

/-- The aggregation at feature width 40. -/
def agg40 (h : (⟨S100000x40, .f32⟩ : BufTy).Contents (Elt F)) (nrm : (⟨S3300000, .f32⟩ : BufTy).Contents (Elt F))
    (s d : (⟨S3300000, .i32⟩ : BufTy).Contents (Elt F)) : (⟨S100000x40, .f32⟩ : BufTy).Contents (Elt F) :=
  Host.scatterAdd scatter_S100000x40_S3300000x1_S3300000x40_1_0_0_1
    (broadcastInDim S100000x40 ![] bcast_S_S100000x40 (constant S_ .f32 0x00000000#32))
    (broadcastInDim S3300000x1 ![0] bcast_S3300000_S3300000x1_0 d)
    (mulf
      (Host.gather gather_S100000x40_S3300000x1_S3300000x40_1_0_n_n_0_1_140 h
        (broadcastInDim S3300000x1 ![0] bcast_S3300000_S3300000x1_0 (wrap s)))
      (broadcastInDim S3300000x40 ![0, 1] bcast_S3300000x1_S3300000x40_0_1
        (broadcastInDim S3300000x1 ![0] bcast_S3300000_S3300000x1_0 nrm)))

/-! ## The reference's own spelling of its dense layers -/

/-- A bias vector of 16 entries laid out as one row and copied into every row of a 100000 × 16 matrix. -/
def biasRows16 (b : (⟨S16, .f32⟩ : BufTy).Contents (Elt F)) : (⟨S100000x16, .f32⟩ : BufTy).Contents (Elt F) :=
  broadcastInDim S100000x16 ![0, 1] bcast_S1x16_S100000x16_0_1 (broadcastInDim S1x16 ![1] bcast_S16_S1x16_1 b)

/-- A bias vector of 40 entries laid out as one row and copied into every row of a 100000 × 40 matrix. -/
def biasRows40 (b : (⟨S40, .f32⟩ : BufTy).Contents (Elt F)) : (⟨S100000x40, .f32⟩ : BufTy).Contents (Elt F) :=
  broadcastInDim S100000x40 ![0, 1] bcast_S1x40_S100000x40_0_1 (broadcastInDim S1x40 ![1] bcast_S40_S1x40_1 b)

/-- The reference's exponential linear unit: z where z > 0, and 1 · (e^t − 1) elsewhere, t being z with its positive
    entries replaced by 0. -/
def eluRef (z : (⟨S100000x16, .f32⟩ : BufTy).Contents (Elt F)) : (⟨S100000x16, .f32⟩ : BufTy).Contents (Elt F) :=
  select (cmpf .ogt z (broadcastInDim S100000x16 ![] bcast_S_S100000x16 (constant S_ .f32 0x00000000#32))) z
    (mulf (broadcastInDim S100000x16 ![] bcast_S_S100000x16 (constant S_ .f32 0x3F800000#32))
      (Host.expm1
        (select (cmpf .ogt z (broadcastInDim S100000x16 ![] bcast_S_S100000x16 (constant S_ .f32 0x00000000#32)))
          (broadcastInDim S100000x16 ![] bcast_S_S100000x16 (id (constant S_ .f32 0x00000000#32))) z)))

/-- The reference's shifted scores: every row minus its greatest entry (the greatest entry taken once more against −∞). -/
def shiftedRef (z : (⟨S100000x40, .f32⟩ : BufTy).Contents (Elt F)) : (⟨S100000x40, .f32⟩ : BufTy).Contents (Elt F) :=
  subf z
    (broadcastInDim S100000x40 ![0, 1] bcast_S100000x1_S100000x40_0_1
      (broadcastInDim S100000x1 ![0] bcast_S100000_S100000x1_0
        (maximumf (broadcastInDim S100000 ![] bcast_S_S100000 (constant S_ .f32 0xFF800000#32))
          (Host.reduce FloatOps.maximumf z (constant S_ .f32 0xFF800000#32) reducesTo_S100000x40_S100000_d1 h_S_))))

/-- The reference's logarithm of the row-wise softmax: the shifted scores minus the logarithm of the row's sum of
    their exponentials. -/
def logSoftmaxRef (z : (⟨S100000x40, .f32⟩ : BufTy).Contents (Elt F)) : (⟨S100000x40, .f32⟩ : BufTy).Contents (Elt F) :=
  subf (shiftedRef z)
    (broadcastInDim S100000x40 ![0, 1] bcast_S100000x1_S100000x40_0_1
      (Host.log
        (broadcastInDim S100000x1 ![0] bcast_S100000_S100000x1_0
          (Host.reduceAdd (Host.exp (shiftedRef z)) (constant S_ .f32 0x00000000#32) reducesTo_S100000x40_S100000_d1 h_S_))))

/-- The first dense layer's product, the host's contraction. -/
def dot1 (x : (⟨S100000x512, .f32⟩ : BufTy).Contents (Elt F)) (w : (⟨S512x16, .f32⟩ : BufTy).Contents (Elt F)) :
    (⟨S100000x16, .f32⟩ : BufTy).Contents (Elt F) :=
  Host.dotGeneral dot_S100000x512_S512x16_S100000x16_1_0_0_1_n_n none x w

/-- The second dense layer's product, the host's contraction. -/
def dot2 (x : (⟨S100000x16, .f32⟩ : BufTy).Contents (Elt F)) (w : (⟨S16x40, .f32⟩ : BufTy).Contents (Elt F)) :
    (⟨S100000x40, .f32⟩ : BufTy).Contents (Elt F) :=
  Host.dotGeneral dot_S100000x16_S16x40_S100000x40_1_0_0_1_n_n none x w

/-- The whole reference: two graph-convolution layers (product, aggregation, bias), the exponential linear unit
    between them, the logarithm of the row-wise softmax at the end. -/
def refOut (x : (⟨S100000x512, .f32⟩ : BufTy).Contents (Elt F)) (w1 : (⟨S512x16, .f32⟩ : BufTy).Contents (Elt F))
    (b1 : (⟨S16, .f32⟩ : BufTy).Contents (Elt F)) (w2 : (⟨S16x40, .f32⟩ : BufTy).Contents (Elt F))
    (b2 : (⟨S40, .f32⟩ : BufTy).Contents (Elt F)) (e : (⟨S2x3200000, .i32⟩ : BufTy).Contents (Elt F)) :
    (⟨S100000x40, .f32⟩ : BufTy).Contents (Elt F) :=
  logSoftmaxRef
    (addf
      (agg40
        (dot2 (eluRef (addf (agg16 (dot1 x w1) (normOf (srcOf e) (dstOf e)) (srcOf e) (dstOf e)) (biasRows16 b1))) w2)
        (normOf (srcOf e) (dstOf e)) (srcOf e) (dstOf e))
      (biasRows40 b2))

end Cert.GcnStages

end
-- ==== Proof.KernelStages.lean ====
/-
  The idealized kernel program's host stretches, each read back as the shared stage it computes: before the first
  dense layer the endpoint vectors and the edge normalization; between the layers the aggregation of the layer's
  output and the next bias laid out as a row. Everything else a stretch leaves as it found it.
-/
import proofs.«167873_j25907242729900_2_alg».proof.Proof.Gen.KernelIdeal.Launch
import proofs.«167873_j25907242729900_2_alg».proof.Proof.Stages
import Idealize.ShloMosaic.Lib.StableHlo.Run

noncomputable section

namespace Cert.KernelIdeal.HostStages

open Cert.KernelIdeal Cert.KernelIdeal.Gen Idealize.ShloMosaic Idealize.ShloMosaic.TcCoe Idealize.SL.Sem
open Idealize.ShloMosaic.StableHlo

variable {F : FTy → Type} [FloatOps F] (V : Valuation τ sig (Elt F))

/-! ## Before the first layer: endpoints and normalization, functions of the edge array alone -/

set_option maxHeartbeats 4000000 in
theorem pre_src : after hostOps0_2 (after hostOps0_1 (after hostOps0 V)) (main_v5 : DevRef τ sig)
    = Cert.GcnStages.srcOf (V (main_arg5 : DevRef τ sig)) := by
  after_results_simp
  rfl

set_option maxHeartbeats 4000000 in
theorem pre_dst : after hostOps0_2 (after hostOps0_1 (after hostOps0 V)) (main_v6 : DevRef τ sig)
    = Cert.GcnStages.dstOf (V (main_arg5 : DevRef τ sig)) := by
  after_results_simp
  rfl

set_option maxHeartbeats 8000000 in
theorem pre_norm : after hostOps0_2 (after hostOps0_1 (after hostOps0 V)) (main_v29 : DevRef τ sig)
    = Cert.GcnStages.normOf (Cert.GcnStages.srcOf (V (main_arg5 : DevRef τ sig))) (Cert.GcnStages.dstOf (V (main_arg5 : DevRef τ sig))) := by
  after_results_simp
  rfl

theorem pre_arg0 : after hostOps0_2 (after hostOps0_1 (after hostOps0 V)) (main_arg0 : DevRef τ sig) = V (main_arg0 : DevRef τ sig) := by
  after_results_simp
theorem pre_arg1 : after hostOps0_2 (after hostOps0_1 (after hostOps0 V)) (main_arg1 : DevRef τ sig) = V (main_arg1 : DevRef τ sig) := by
  after_results_simp
theorem pre_arg2 : after hostOps0_2 (after hostOps0_1 (after hostOps0 V)) (main_arg2 : DevRef τ sig) = V (main_arg2 : DevRef τ sig) := by
  after_results_simp
theorem pre_arg3 : after hostOps0_2 (after hostOps0_1 (after hostOps0 V)) (main_arg3 : DevRef τ sig) = V (main_arg3 : DevRef τ sig) := by
  after_results_simp
theorem pre_arg4 : after hostOps0_2 (after hostOps0_1 (after hostOps0 V)) (main_arg4 : DevRef τ sig) = V (main_arg4 : DevRef τ sig) := by
  after_results_simp

/-! ## Between the first and the second layer: the aggregation at width 16, the first bias as a row -/

set_option maxHeartbeats 4000000 in
theorem mid_agg : after hostOps1 V (main_v43 : DevRef τ sig)
    = Cert.GcnStages.agg16 (V (main_v30 : DevRef τ sig)) (V (main_v29 : DevRef τ sig)) (V (main_v5 : DevRef τ sig)) (V (main_v6 : DevRef τ sig)) := by
  after_results_simp
  rfl

theorem mid_bias : after hostOps1 V (main_v44 : DevRef τ sig)
    = shapeCast S1x16 (V (main_arg2 : DevRef τ sig)) Facts₀.shapeCasts_S16_S1x16 := by
  after_results_simp
  rfl

theorem mid_norm : after hostOps1 V (main_v29 : DevRef τ sig) = V (main_v29 : DevRef τ sig) := by after_results_simp
theorem mid_src : after hostOps1 V (main_v5 : DevRef τ sig) = V (main_v5 : DevRef τ sig) := by after_results_simp
theorem mid_dst : after hostOps1 V (main_v6 : DevRef τ sig) = V (main_v6 : DevRef τ sig) := by after_results_simp
theorem mid_arg3 : after hostOps1 V (main_arg3 : DevRef τ sig) = V (main_arg3 : DevRef τ sig) := by after_results_simp
theorem mid_arg4 : after hostOps1 V (main_arg4 : DevRef τ sig) = V (main_arg4 : DevRef τ sig) := by after_results_simp

/-! ## Between the second layer and the softmax: the aggregation at width 40, the second bias as a row -/

set_option maxHeartbeats 4000000 in
theorem last_agg : after hostOps2 V (main_v58 : DevRef τ sig)
    = Cert.GcnStages.agg40 (V (main_v45 : DevRef τ sig)) (V (main_v29 : DevRef τ sig)) (V (main_v5 : DevRef τ sig)) (V (main_v6 : DevRef τ sig)) := by
  after_results_simp
  rfl

theorem last_bias : after hostOps2 V (main_v59 : DevRef τ sig)
    = shapeCast S1x40 (V (main_arg4 : DevRef τ sig)) Facts₀.shapeCasts_S40_S1x40 := by
  after_results_simp
  rfl

end Cert.KernelIdeal.HostStages

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibPlainDot.lean ====
/-
  A plain matrix product computed by the host, read at an entry. For an M×K left operand and a K×N right operand
  contracted over the one shared axis (left axis 1 against right axis 0, no batch axis), the exact product has, at row r
  and column c, the value  Σ_k lhs(r, k) · rhs(k, c) — the same sum a matrix unit accumulating into zero leaves there,
  so the two agree entry by entry whatever the tiling of the rows.
-/
import proofs.«167873_j25907242729900_2_alg».proof.Proof.LibPlainMatmul

noncomputable section

namespace PlainDot

open Idealize.ShloMosaic Idealize.ShloMosaic.ValueIdx

variable {M K N : ℕ}

/-- The host's product at (r, c) is Σ_k lhs(r, k) · rhs(k, c). -/
theorem apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact PlainMatmul.lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact PlainMatmul.rhs_col _ _)
  rw [el, er]

end PlainDot

end
-- ==== Proof.LibExactProduct.lean ====
/-
  The exact matrix product as one function of its two operands, entry by entry:
  (x · w)(r, c) = Σ_k x(r, k) · w(k, c) on the extended reals, for an M × K and a K × N matrix.
  The host's contraction of axis 1 against axis 0 (no batch axis) is this function, and so is a product computed row
  block by row block, whatever the tiling of the rows. Also the product plus a bias row added to every row, and the
  host's spelling of that sum: a bias vector laid out as one row, copied into every row, and added.
-/
import proofs.«167873_j25907242729900_2_alg».proof.Proof.LibPlainDot
import Idealize.ShloMosaic.Lib.ValueLayout
import Idealize.ShloMosaic.Lib.Pipeline.Value

noncomputable section

namespace ExactProduct

open Idealize.ShloMosaic Idealize.ShloMosaic.ValueIdx

/-- The exact product of an M × K matrix and a K × N matrix. -/
def mm {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem mm_apply {M K N : ℕ} (x : (⟨2, ![M, K]⟩ : Shape).Idx → EReal) (w : (⟨2, ![K, N]⟩ : Shape).Idx → EReal)
    (r : Fin M) (c : Fin N) : mm x w (ix2 r c) = ∑ k : Fin K, x (ix2 r k) * w (ix2 k c) := rfl

/-- The host's contraction of axis 1 against axis 0, no batch axis, is the exact product. -/
theorem hostDot_eq_mm {M K N : ℕ} (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral (F := Ideal) d prec x w = mm x w := by
  subst hd
  funext i
  obtain ⟨r, c, rfl⟩ : ∃ (r : Fin M) (c : Fin N), i = ix2 r c := ⟨i 0, i 1, eq_ix2 i⟩
  exact PlainDot.apply prec x w r c

/-- The exact product plus a bias row added to every row. -/
def proj {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => mm x w i + b (ix2 (0 : Fin 1) (i 1))

/-- A bias vector laid out as one row and copied into every row reads, at (r, c), the vector at c. -/
theorem rowOfVector_apply {M N : ℕ} (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 bp) (ix2 r c) = bp (ix1 c) := by
  have hc : c.val < N := c.isLt
  refine (broadcastInDim_apply ![0, 1] h2 _ (ix2 r c) (ix2 (0 : Fin 1) c) (fun a => ?_)).trans
    (broadcastInDim_apply ![1] h1 bp (ix2 (0 : Fin 1) c) (ix1 c) (fun a => ?_))
  · match a with
    | ⟨0, _⟩ => rfl
    | ⟨1, _⟩ =>
      show c.val = if N = 1 then 0 else c.val
      split
      · omega
      · rfl
  · match a with
    | ⟨0, _⟩ =>
      show c.val = if N = 1 then 0 else c.val
      split
      · omega
      · rfl

/-- The host's product plus the bias vector copied into every row is the projection with the vector cast to a row. -/
theorem addRow_eq_proj {M K N : ℕ} (x : (⟨2, ![M, K]⟩ : Shape).Idx → EReal) (w : (⟨2, ![K, N]⟩ : Shape).Idx → EReal)
    (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (F := Ideal) (φ := .f32) (mm x w) (broadcastInDim ⟨2, ![M, N]⟩ ![0, 1] h2 (broadcastInDim ⟨2, ![1, N]⟩ ![1] h1 bp))
      = proj x w (shapeCast ⟨2, ![1, N]⟩ bp hc) := by
  funext i
  obtain ⟨r, c, rfl⟩ : ∃ (r : Fin M) (c : Fin N), i = ix2 r c := ⟨i 0, i 1, eq_ix2 i⟩
  show mm x w (ix2 r c) + _ = mm x w (ix2 r c) + shapeCast ⟨2, ![1, N]⟩ bp hc (ix2 (0 : Fin 1) c)
  exact congrArg (mm x w (ix2 r c) + ·) ((rowOfVector_apply bp h1 h2 r c).trans (shapeCast_a_1a_apply bp hc (0 : Fin 1) c).symm)

end ExactProduct

end
-- ==== Proof.Layers.lean ====
/-
  The dense layers of a two-layer graph convolution as functions on the extended reals, entry by entry:
  a matrix plus a bias row, the exponential linear unit, and the logarithm of a row-wise softmax with the
  row's greatest entry subtracted first. The matrix product itself is `ExactProduct.mm`.
-/
import Idealize.ShloMosaic.PureOps.Ideal
import Idealize.ShloMosaic.Lib.ValueIdx
import proofs.«167873_j25907242729900_2_alg».proof.Proof.LibExactProduct

noncomputable section

namespace Cert.GcnLayers

open Idealize.ShloMosaic Idealize.ShloMosaic.ValueIdx

variable {a c : ℕ}

/-- A matrix plus a one-row bias copied into every row: at (p, d) it is x[p, d] + b[0, d]. -/
def rowBias (x : (⟨2, ![a, c]⟩ : Shape).Idx → EReal) (b : (⟨2, ![1, c]⟩ : Shape).Idx → EReal) :
    (⟨2, ![a, c]⟩ : Shape).Idx → EReal :=
  fun i => x i + b (ix2 (0 : Fin 1) (i 1))

theorem rowBias_apply (x : (⟨2, ![a, c]⟩ : Shape).Idx → EReal) (b : (⟨2, ![1, c]⟩ : Shape).Idx → EReal)
    (p : Fin a) (d : Fin c) : rowBias x b (ix2 p d) = x (ix2 p d) + b (ix2 (0 : Fin 1) d) := rfl

/-- The exponential linear unit on one extended real: y itself for y > 0, e^y − 1 otherwise. -/
def elu1 (y : EReal) : EReal := if 0 < y then y else Ideal.exp y - 1

/-- The exponential linear unit applied to every entry. -/
def elu (x : (⟨2, ![a, c]⟩ : Shape).Idx → EReal) : (⟨2, ![a, c]⟩ : Shape).Idx → EReal :=
  fun i => elu1 (x i)

theorem elu_apply (x : (⟨2, ![a, c]⟩ : Shape).Idx → EReal) (i : (⟨2, ![a, c]⟩ : Shape).Idx) :
    elu x i = elu1 (x i) := rfl

/-- The greatest entry of row r: the fold of max over the row from −∞, written as the f32 word of −∞. -/
def rowMax (x : (⟨2, ![a, c]⟩ : Shape).Idx → EReal) (r : Fin a) : EReal :=
  (Finset.univ : Finset (Fin c)).fold max (Ideal.ofBits .f32 0xFF800000#32) (fun k => x (ix2 r k))

/-- The sum over row r of e^(x − the row's greatest entry). -/
def rowExpSum (x : (⟨2, ![a, c]⟩ : Shape).Idx → EReal) (r : Fin a) : EReal :=
  ∑ k : Fin c, Ideal.exp (x (ix2 r k) - rowMax x r)

/-- The logarithm of the row-wise softmax: (x − max) − log Σ e^(x − max), row by row. -/
def logSoftmax (x : (⟨2, ![a, c]⟩ : Shape).Idx → EReal) : (⟨2, ![a, c]⟩ : Shape).Idx → EReal :=
  fun i => (x i - rowMax x (i 0)) - Ideal.log (rowExpSum x (i 0))

theorem logSoftmax_apply (x : (⟨2, ![a, c]⟩ : Shape).Idx → EReal) (p : Fin a) (d : Fin c) :
    logSoftmax x (ix2 p d) = (x (ix2 p d) - rowMax x p) - Ideal.log (rowExpSum x p) := rfl

end Cert.GcnLayers

end
-- ==== Proof.Region0.lean ====
/-
  The first dense layer's product, block by block. The rows of the 100000 × 512 input are cut into 20 blocks of 5000
  rows; the step for block t multiplies its 5000 × 512 block by the whole 512 × 16 weight matrix and writes the
  5000 × 16 result as block t of the output. Entry (p, q) of that block is Σ_k x(5000·t + p, k) · w(k, q), which is
  entry (5000·t + p, q) of the exact product x · w; every output row r lies in block r / 5000, so the output array
  ends holding x · w.
-/
import proofs.«167873_j25907242729900_2_alg».proof.Proof.Gen.KernelIdeal.Frame
import proofs.«167873_j25907242729900_2_alg».proof.Proof.Layers
import proofs.«167873_j25907242729900_2_alg».proof.Proof.LibExactProduct
import proofs.«167873_j25907242729900_2_alg».proof.Proof.LibPlainMatmul
import Idealize.ShloMosaic.Lib.Pipeline.Value

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

/-- The zero offsets of a whole block, as a constant function. -/
theorem zeroOffsets : (![0, 0] : Fin 2 → Nat) = fun _ => 0 := funext fun a => by fin_cases a <;> rfl

/-- One step's result at (p, q): the row p of the input block against the column q of the weights. Rounding the
    operands to a narrower format changes nothing at the exact values. -/
theorem blockProduct_at (x0 : Vec Ideal S5000x512 .f32) (x1 : Vec Ideal S512x16 .f32) (p : Fin 5000) (q : Fin 16) :
    k0_pay1 (F := Ideal) x0 x1 (ix2 p q) = ∑ k : Fin 512, x0 (ix2 p k) * x1 (ix2 k q) := by
  unfold k0_pay1
  exact PlainMatmul.apply_zero (M := 5000) (K := 512) (N := 16)
    (truncf .bf16 x0 bitsLt_bf16_f32) (truncf .bf16 x1 bitsLt_bf16_f32) p q

variable (V : (c : Dev nD) → (b : Ref sig .tc) → Buf (Elt Ideal) ((c : Thread nD τ).loc b))

/-- Where the three blocks of step t sit: the input's and the output's row block is block t, on the column axis they
    start at 0, and the weights' block is the whole matrix. -/
theorem blockIndices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the input's block t is entry (5000·t + p, k) of the input. -/
theorem inputBlock0_at (c : Dev nD) (t : Fin cfg0.N) (p : Fin 5000) (k : Fin 512) (i : S100000x512.Idx)
    (h0 : (i 0).val = 5000 * t.val + p.val) (h1 : (i 1).val = k.val) :
    (iblk0 V c 0 t : Vec Ideal S5000x512 .f32) (ix2 p k) = (V c main_arg0 : S100000x512.Idx → EReal) i := by
  obtain ⟨e0, e1, -⟩ := blockIndices0 t
  unfold iblk0
  rw [View.read_apply]
  show (V c main_arg0 : S100000x512.Idx → EReal) _ = _
  congr 1
  funext a
  apply Fin.ext
  match a with
  | ⟨0, _⟩ => show win0_0.index t (0 : Fin 2) * 5000 + 1 * p.val = (i 0).val; rw [e0, h0]; omega
  | ⟨1, _⟩ => show win0_0.index t (1 : Fin 2) * 512 + 1 * k.val = (i 1).val; rw [e1, h1]; omega

/-- The weights' block at every step is the whole weight matrix. -/
theorem weightBlock0_at (c : Dev nD) (t : Fin cfg0.N) (k : Fin 512) (q : Fin 16) :
    (iblk0 V c 1 t : Vec Ideal S512x16 .f32) (ix2 k q) = (V c main_arg1 : S512x16.Idx → EReal) (ix2 k q) := by
  obtain ⟨-, -, e0, e1, -⟩ := blockIndices0 t
  unfold iblk0
  rw [View.read_apply]
  show (V c main_arg1 : S512x16.Idx → EReal) _ = _
  congr 1
  funext a
  apply Fin.ext
  match a with
  | ⟨0, _⟩ => show win0_1.index t (0 : Fin 2) * 512 + 1 * k.val = k.val; rw [e0]; omega
  | ⟨1, _⟩ => show win0_1.index t (1 : Fin 2) * 16 + 1 * q.val = q.val; rw [e1]; omega

/-- A row of a block against a column of the weights is an entry of the exact product, when the block's row is a row
    of the input and the weights are the weights. -/
theorem blockRow_eq_product (x0 : Vec Ideal S5000x512 .f32) (x1 : Vec Ideal S512x16 .f32)
    (X : S100000x512.Idx → EReal) (W : S512x16.Idx → EReal) (p : Fin 5000) (q : Fin 16) (i : S100000x16.Idx)
    (hx : ∀ k : Fin 512, x0 (ix2 p k) = X (ix2 (i 0) k)) (hw : ∀ k : Fin 512, x1 (ix2 k q) = W (ix2 k (i 1))) :
    ∑ k : Fin 512, x0 (ix2 p k) * x1 (ix2 k q) = ExactProduct.mm X W i :=
  Finset.sum_congr rfl fun k _ => congrArg₂ (fun a b : EReal => a * b) (hx k) (hw k)

/-- What step t writes back is block t of the exact product of the input and the weights. -/
theorem flushed0_eq (c : Dev nD) (t : Fin cfg0.N) :
    (dat0 (F := Ideal) V c).flushed 2 t
      = ((cfg0.win 2).blk t).view.read (Elt Ideal) (ExactProduct.mm (V c main_arg0 : S100000x512.Idx → EReal) (V c main_arg1 : S512x16.Idx → EReal)) := by
  show (cfg0.win 2).cut (grid0.coords t) ((dat0 (F := Ideal) V c).after 2 t) = _
  rw [after0_2]
  unfold out0_2
  rw [View.canon_unit_zero zeroOffsets]
  simp only [View.ld_unit_zero (S := S5000x512) zeroOffsets, View.ld_unit_zero (S := S512x16) zeroOffsets]
  obtain ⟨-, -, -, -, e0, e1⟩ := blockIndices0 t
  funext j
  obtain ⟨p, q, rfl⟩ : ∃ (p : Fin 5000) (q : Fin 16), j = ix2 p q := ⟨j 0, j 1, eq_ix2 j⟩
  refine (blockProduct_at (iblk0 V c 0 t) (iblk0 V c 1 t) p q).trans ?_
  refine blockRow_eq_product (iblk0 V c 0 t) (iblk0 V c 1 t) (V c main_arg0) (V c main_arg1) p q
    (((cfg0.win 2).blk t).view.emb (ix2 p q)) (fun k => ?_) (fun k => ?_)
  · exact inputBlock0_at V c t p k _
      (by show win0_2.index t (0 : Fin 2) * 5000 + 1 * p.val = 5000 * t.val + p.val; rw [e0]; omega) rfl
  · refine (weightBlock0_at V c t k q).trans (congrArg (V c main_arg1 : S512x16.Idx → EReal) ?_)
    funext a
    apply Fin.ext
    match a with
    | ⟨0, _⟩ => rfl
    | ⟨1, _⟩ => show q.val = win0_2.index t (1 : Fin 2) * 16 + 1 * q.val; rw [e1]; omega

/-- An index of the output is in step t's block iff each coordinate is in the block's range on its axis. -/
theorem mem_block0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- Every index of the output is in some step's block: row r is in block r / 5000. -/
theorem covered0 (i : S100000x16.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 16 := (i 1).isLt
  have ht : (i 0).val / 5000 < cfg0.N := by rw [hN]; omega
  refine ⟨⟨(i 0).val / 5000, ht⟩, flush0_2 _, ?_⟩
  obtain ⟨-, -, -, -, e0, e1⟩ := blockIndices0 ⟨(i 0).val / 5000, ht⟩
  rw [mem_block0]
  intro a
  match a with
  | ⟨0, _⟩ =>
    show win0_2.index _ (0 : Fin 2) * 5000 ≤ (i 0).val ∧ (i 0).val < win0_2.index _ (0 : Fin 2) * 5000 + 5000
    rw [e0]; show (i 0).val / 5000 * 5000 ≤ (i 0).val ∧ (i 0).val < (i 0).val / 5000 * 5000 + 5000; omega
  | ⟨1, _⟩ =>
    show win0_2.index _ (1 : Fin 2) * 16 ≤ (i 1).val ∧ (i 1).val < win0_2.index _ (1 : Fin 2) * 16 + 16
    rw [e1]; omega

/-- After the 20 steps the output array holds the exact product of the input and the weights. -/
theorem final0 (c : Dev nD) : (dat0 (F := Ideal) V c).arrAt 2 cfg0.N
    = ExactProduct.mm (V c main_arg0 : S100000x512.Idx → EReal) (V c main_arg1 : S512x16.Idx → EReal) :=
  (dat0 (F := Ideal) V c).arrAt_eq_of_cover 2 _ (fun t _ => flushed0_eq V c t) covered0

end Cert.KernelIdeal.RegionValue

end
-- ==== Proof.Region1.lean ====
/-
  The second dense layer, block by block. The rows of the 100000 × 16 hidden array are cut into 10 blocks of 10000
  rows; the step for block t adds the one bias row to every row of the block, applies the exponential linear unit
  entry by entry, multiplies by the whole 16 × 40 weight matrix and writes the 10000 × 40 result as block t of the
  output. The unit is computed as "y where y > 0, e^min(y, 0) − 1 elsewhere", which is y for y > 0 and e^y − 1
  otherwise. Entry (p, q) of the step's result is Σ_k elu(h(10000·t + p, k) + b(0, k)) · w(k, q), entry
  (10000·t + p, q) of the exact product; every output row r lies in block r / 10000.
-/
import proofs.«167873_j25907242729900_2_alg».proof.Proof.Gen.KernelIdeal.Frame
import proofs.«167873_j25907242729900_2_alg».proof.Proof.Layers
import proofs.«167873_j25907242729900_2_alg».proof.Proof.LibExactProduct
import proofs.«167873_j25907242729900_2_alg».proof.Proof.LibPlainMatmul
import Idealize.ShloMosaic.Lib.IdealHost
import Idealize.ShloMosaic.Lib.ValueLayout
import Idealize.ShloMosaic.Lib.Pipeline.Value

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)
open Cert.GcnLayers

/-- The zero offsets of a whole block, as a constant function. -/
theorem zeroOffsets1 : (![0, 0] : Fin 2 → Nat) = fun _ => 0 := funext fun a => by fin_cases a <;> rfl

/-- The exponential linear unit as the step spells it on one value: y where y > 0, and e^min(y, 0) − 1 elsewhere,
    where min(y, 0) = y. -/
theorem eluSpelled_eq (y : Ideal .f32) :
    Scalar.select (FloatOps.cmpf .ogt y (Scalar.ofBits .f32 0x00000000#32)) y
        (FloatOps.subf (FloatOps.exp (FloatOps.minimumf y (Scalar.ofBits .f32 0x00000000#32))) (Scalar.ofBits .f32 0x3F800000#32))
      = elu1 y := by
  show (if BitVec.ofBool (decide (Ideal.ofBits .f32 0x00000000#32 < y)) = 1 then y
      else Ideal.exp (min y (Ideal.ofBits .f32 0x00000000#32)) - Ideal.ofBits .f32 0x3F800000#32)
    = if 0 < y then y else Ideal.exp y - 1
  rw [Ideal.ofBits_zero_f32, Ideal.ofBits_one_f32]
  by_cases h : 0 < y
  · rw [if_pos h, if_pos (by simp [h])]
  · rw [if_neg h, if_neg (by simp [h]), min_eq_left (not_lt.mp h)]

/-- The block with the bias row copied into every row and added, at (p, k): x(p, k) + b(0, k). -/
theorem biasedBlock1_at (x0 : Vec Ideal S10000x16 .f32) (x1 : Vec Ideal S1x16 .f32) (p : Fin 10000) (k : Fin 16) :
    addf (F := Ideal) (φ := .f32) (shapeCast S10000x16 x0 shapeCasts_S10000x16_S10000x16)
        (broadcastTo S10000x16 (shapeCast S1x16 x1 shapeCasts_S1x16_S1x16) broadcasts_S1x16_S10000x16) (ix2 p k)
      = rowBias x0 x1 (ix2 p k) := by
  rw [shapeCast_self, shapeCast_self]
  exact congrArg (x0 (ix2 p k) + ·) (broadcastTo_1b_ab_apply x1 broadcasts_S1x16_S10000x16 p k)

/-- One step's result at (p, q): the unit of row p of the biased block against column q of the weights. Rounding
    the operands to a narrower format changes nothing at the exact values. -/
theorem layerBlock_at (x0 : Vec Ideal S10000x16 .f32) (x1 : Vec Ideal S1x16 .f32) (x2 : Vec Ideal S16x40 .f32)
    (p : Fin 10000) (q : Fin 40) :
    k1_pay1 (F := Ideal) x0 x1 x2 (ix2 p q) = ∑ k : Fin 16, elu1 (rowBias x0 x1 (ix2 p k)) * x2 (ix2 k q) := by
  unfold k1_pay1
  exact (PlainMatmul.apply_zero (M := 10000) (K := 16) (N := 40) _ (truncf .bf16 x2 bitsLt_bf16_f32) p q).trans
    (Finset.sum_congr rfl fun k _ => congrArg (fun u : EReal => u * x2 (ix2 k q))
      ((eluSpelled_eq _).trans (congrArg elu1 (biasedBlock1_at x0 x1 p k))))

/-- A row of a block through the layer is an entry of the layer of the whole array, when the block's row is a row of
    the array and the bias row and the weights are the array's. -/
theorem blockRow_eq_layer (x0 : Vec Ideal S10000x16 .f32) (x1 : Vec Ideal S1x16 .f32) (x2 : Vec Ideal S16x40 .f32)
    (X : S100000x16.Idx → EReal) (B : S1x16.Idx → EReal) (W : S16x40.Idx → EReal) (p : Fin 10000) (q : Fin 40)
    (i : S100000x40.Idx) (hx : ∀ k : Fin 16, x0 (ix2 p k) = X (ix2 (i 0) k))
    (hb : ∀ k : Fin 16, x1 (ix2 (0 : Fin 1) k) = B (ix2 (0 : Fin 1) k))
    (hw : ∀ k : Fin 16, x2 (ix2 k q) = W (ix2 k (i 1))) :
    ∑ k : Fin 16, elu1 (rowBias x0 x1 (ix2 p k)) * x2 (ix2 k q) = ExactProduct.mm (elu (rowBias X B)) W i :=
  Finset.sum_congr rfl fun k _ => congrArg₂ (fun u v : EReal => u * v)
    (congrArg elu1 (congrArg₂ (fun u v : EReal => u + v) (hx k) (hb k))) (hw k)

variable (V : (c : Dev nD) → (b : Ref sig .tc) → Buf (Elt Ideal) ((c : Thread nD τ).loc b))

/-- Where the four blocks of step t sit: the hidden array's and the output's row block is block t, on the column axis
    they start at 0, and the bias row's and the weights' blocks are the whole arrays. -/
theorem blockIndices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, k) of the hidden array's block t is entry (10000·t + p, k) of the hidden array. -/
theorem inputBlock1_at (c : Dev nD) (t : Fin cfg1.N) (p : Fin 10000) (k : Fin 16) (i : S100000x16.Idx)
    (h0 : (i 0).val = 10000 * t.val + p.val) (h1 : (i 1).val = k.val) :
    (iblk1 V c 0 t : Vec Ideal S10000x16 .f32) (ix2 p k) = (V c main_v43 : S100000x16.Idx → EReal) i := by
  obtain ⟨e0, e1, -⟩ := blockIndices1 t
  unfold iblk1
  rw [View.read_apply]
  show (V c main_v43 : S100000x16.Idx → EReal) _ = _
  congr 1
  funext a
  apply Fin.ext
  match a with
  | ⟨0, _⟩ => show win1_0.index t (0 : Fin 2) * 10000 + 1 * p.val = (i 0).val; rw [e0, h0]; omega
  | ⟨1, _⟩ => show win1_0.index t (1 : Fin 2) * 16 + 1 * k.val = (i 1).val; rw [e1, h1]; omega

/-- The bias row's block at every step is the whole bias row. -/
theorem biasBlock1_at (c : Dev nD) (t : Fin cfg1.N) (k : Fin 16) :
    (iblk1 V c 1 t : Vec Ideal S1x16 .f32) (ix2 (0 : Fin 1) k) = (V c main_v44 : S1x16.Idx → EReal) (ix2 (0 : Fin 1) k) := by
  obtain ⟨-, -, e0, e1, -⟩ := blockIndices1 t
  unfold iblk1
  rw [View.read_apply]
  show (V c main_v44 : S1x16.Idx → EReal) _ = _
  congr 1
  funext a
  apply Fin.ext
  match a with
  | ⟨0, _⟩ => show win1_1.index t (0 : Fin 2) * 1 + 1 * 0 = 0; rw [e0]
  | ⟨1, _⟩ => show win1_1.index t (1 : Fin 2) * 16 + 1 * k.val = k.val; rw [e1]; omega

/-- The weights' block at every step is the whole weight matrix. -/
theorem weightBlock1_at (c : Dev nD) (t : Fin cfg1.N) (k : Fin 16) (q : Fin 40) :
    (iblk1 V c 2 t : Vec Ideal S16x40 .f32) (ix2 k q) = (V c main_arg3 : S16x40.Idx → EReal) (ix2 k q) := by
  obtain ⟨-, -, -, -, e0, e1, -⟩ := blockIndices1 t
  unfold iblk1
  rw [View.read_apply]
  show (V c main_arg3 : S16x40.Idx → EReal) _ = _
  congr 1
  funext a
  apply Fin.ext
  match a with
  | ⟨0, _⟩ => show win1_2.index t (0 : Fin 2) * 16 + 1 * k.val = k.val; rw [e0]; omega
  | ⟨1, _⟩ => show win1_2.index t (1 : Fin 2) * 40 + 1 * q.val = q.val; rw [e1]; omega

/-- What step t writes back is block t of the layer of the whole hidden array. -/
theorem flushed1_eq (c : Dev nD) (t : Fin cfg1.N) :
    (dat1 (F := Ideal) V c).flushed 3 t
      = ((cfg1.win 3).blk t).view.read (Elt Ideal)
          (ExactProduct.mm (elu (rowBias (V c main_v43 : S100000x16.Idx → EReal) (V c main_v44 : S1x16.Idx → EReal)))
            (V c main_arg3 : S16x40.Idx → EReal)) := by
  show (cfg1.win 3).cut (grid1.coords t) ((dat1 (F := Ideal) V c).after 3 t) = _
  rw [after1_3]
  unfold out1_3
  rw [View.canon_unit_zero zeroOffsets1]
  simp only [View.ld_unit_zero (S := S10000x16) zeroOffsets1, View.ld_unit_zero (S := S1x16) zeroOffsets1,
    View.ld_unit_zero (S := S16x40) zeroOffsets1]
  obtain ⟨-, -, -, -, -, -, e0, e1⟩ := blockIndices1 t
  funext j
  obtain ⟨p, q, rfl⟩ : ∃ (p : Fin 10000) (q : Fin 40), j = ix2 p q := ⟨j 0, j 1, eq_ix2 j⟩
  refine (layerBlock_at (iblk1 V c 0 t) (iblk1 V c 1 t) (iblk1 V c 2 t) p q).trans ?_
  refine blockRow_eq_layer (iblk1 V c 0 t) (iblk1 V c 1 t) (iblk1 V c 2 t) (V c main_v43) (V c main_v44) (V c main_arg3) p q
    (((cfg1.win 3).blk t).view.emb (ix2 p q)) (fun k => ?_) (fun k => biasBlock1_at V c t k) (fun k => ?_)
  · exact inputBlock1_at V c t p k _
      (by show win1_3.index t (0 : Fin 2) * 10000 + 1 * p.val = 10000 * t.val + p.val; rw [e0]; omega) rfl
  · refine (weightBlock1_at V c t k q).trans (congrArg (V c main_arg3 : S16x40.Idx → EReal) ?_)
    funext a
    apply Fin.ext
    match a with
    | ⟨0, _⟩ => rfl
    | ⟨1, _⟩ => show q.val = win1_3.index t (1 : Fin 2) * 40 + 1 * q.val; rw [e1]; omega

/-- An index of the output is in step t's block iff each coordinate is in the block's range on its axis. -/
theorem mem_block1 (t : Fin cfg1.N) (i : S100000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v45).slice (win1_3.rect t)).set ↔ _
  rw [View.set_slice_whole, Rect.mem_set_unit]
  exact Iff.rfl

/-- Every index of the output is in some step's block: row r is in block r / 10000. -/
theorem covered1 (i : S100000x40.Idx) : ∃ t : Fin cfg1.N, (cfg1.win 3).flush t = true ∧ i ∈ ((cfg1.win 3).blk t).view.set := by
  have hN : cfg1.N = 10 := N_1
  have hi0 : (i 0).val < 100000 := (i 0).isLt
  have hi1 : (i 1).val < 40 := (i 1).isLt
  have ht : (i 0).val / 10000 < cfg1.N := by rw [hN]; omega
  refine ⟨⟨(i 0).val / 10000, ht⟩, flush1_3 _, ?_⟩
  obtain ⟨-, -, -, -, -, -, e0, e1⟩ := blockIndices1 ⟨(i 0).val / 10000, ht⟩
  rw [mem_block1]
  intro a
  match a with
  | ⟨0, _⟩ =>
    show win1_3.index _ (0 : Fin 2) * 10000 ≤ (i 0).val ∧ (i 0).val < win1_3.index _ (0 : Fin 2) * 10000 + 10000
    rw [e0]; show (i 0).val / 10000 * 10000 ≤ (i 0).val ∧ (i 0).val < (i 0).val / 10000 * 10000 + 10000; omega
  | ⟨1, _⟩ =>
    show win1_3.index _ (1 : Fin 2) * 40 ≤ (i 1).val ∧ (i 1).val < win1_3.index _ (1 : Fin 2) * 40 + 40
    rw [e1]; omega

/-- After the 10 steps the output array holds the layer of the whole hidden array. -/
theorem final1 (c : Dev nD) : (dat1 (F := Ideal) V c).arrAt 3 cfg1.N
    = ExactProduct.mm (elu (rowBias (V c main_v43 : S100000x16.Idx → EReal) (V c main_v44 : S1x16.Idx → EReal)))
        (V c main_arg3 : S16x40.Idx → EReal) :=
  (dat1 (F := Ideal) V c).arrAt_eq_of_cover 3 _ (fun t _ => flushed1_eq V c t) covered1

end Cert.KernelIdeal.RegionValue

end
-- ==== Proof.LibRowReduce.lean ====
/-
  Reductions along the rows of a matrix, read at a row. At the exact values a lane reduction of an a×b matrix over its
  second axis is, at row r, the sum (for an add reduction) or the fold of max from the accumulator's value (for a
  maximum reduction) of the b entries (r, k) of that row; the host's reduce over the same axis is the same fold from its
  initial value, and its sum the initial value plus the same sum. A fold of max that starts at a value is at least that
  value, so taking the maximum with the start once more changes nothing.
-/
import Idealize.ShloMosaic.PureOps.Ideal.Laws
import Idealize.ShloMosaic.Lib.ValueIdx

noncomputable section

namespace RowReduce

open Idealize.ShloMosaic Idealize.ShloMosaic.ValueIdx

variable {a b : ℕ}

/-- The index a reduction over axis 1 reads at row `r` and position `k` is `(r, k)`. -/
theorem lift_eq (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- A lane sum over the second axis, at row `r`: the sum of that row's entries. -/
theorem laneSum_at (src : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_eq h r k))

/-- A lane maximum over the second axis, at row `r`: the fold of max over that row's entries from the accumulator's value. -/
theorem laneMax_at (src : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (Finset.fold max (Ideal.ofBits .f32 acc) · (Finset.univ : Finset (Fin b)))
      (funext fun k => congrArg src (lift_eq h r k)))

/-- The host's sum over the second axis, at row `r`: the initial value plus the sum of that row's entries. -/
theorem hostSum_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_eq h r k))

/-- The host's maximum over the second axis, at row `r`: the fold of max over that row's entries from the initial value. -/
theorem hostMax_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) :=
  (Host.reduce_eq_fold_single (FloatOps.maximumf (F := Ideal) (φ := .f32)) x init h' h hu (ix1 r)).trans
    (congrArg (Finset.fold max (init (Shape.Idx.first hu)) · (Finset.univ : Finset (Fin b)))
      (funext fun k => congrArg x (lift_eq h r k)))

/-- A fold of max from `m₀` is at least `m₀`: the maximum with `m₀` once more is the fold itself. -/
theorem max_fold_self {ι : Type} (s : Finset ι) (m₀ : EReal) (f : ι → EReal) :
    max m₀ (s.fold max m₀ f) = s.fold max m₀ f :=
  max_eq_right ((Finset.le_fold_max (s := s) (b := m₀) (f := f) (c := m₀)).2 (Or.inl le_rfl))

end RowReduce

end
-- ==== Proof.LibKeepdimsColumn.lean ====
/-
  A column kept beside a matrix. A vector of a entries reshaped to an a×1 column reads its entry i at (i, 0); an a×1
  column broadcast along its unit axis to an a×b matrix reads, at (p, c), the column's entry p. Together they are how a
  per-row quantity (a row's maximum, a row's sum) is put back beside every entry of its row.
-/
import Idealize.ShloMosaic.Lib.ValueLayout

namespace KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.Region2.lean ====
/-
  The logarithm of the row-wise softmax, block by block. The rows of the 100000 × 40 input are cut into 10 blocks of
  10000 rows; the step for block t adds the one bias row to every row of the block, subtracts from each row its
  greatest entry, and subtracts the logarithm of the row's sum of exponentials. Every quantity is computed inside one
  row, so the step's result at (p, d) is the log-softmax of the biased input at row 10000·t + p, and every output row r
  lies in block r / 10000: the output array ends holding the log-softmax of the biased input.
-/
import proofs.«167873_j25907242729900_2_alg».proof.Proof.Gen.KernelIdeal.Frame
import proofs.«167873_j25907242729900_2_alg».proof.Proof.Layers
import proofs.«167873_j25907242729900_2_alg».proof.Proof.LibRowReduce
import proofs.«167873_j25907242729900_2_alg».proof.Proof.LibKeepdimsColumn
import Idealize.ShloMosaic.Lib.ValueLayout
import Idealize.ShloMosaic.Lib.Pipeline.Value

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)
open Cert.GcnLayers

/-- The zero offsets of a whole block, as a constant function. -/
theorem zeroOffsets2 : (![0, 0] : Fin 2 → Nat) = fun _ => 0 := funext fun a => by fin_cases a <;> rfl

/-- The block with the bias row copied into every row and added, at (p, d): x(p, d) + b(0, d). -/
theorem biasedBlock2_at (x0 : Vec Ideal S10000x40 .f32) (x1 : Vec Ideal S1x40 .f32) (p : Fin 10000) (d : Fin 40) :
    addf (F := Ideal) (φ := .f32) (shapeCast S10000x40 x0 shapeCasts_S10000x40_S10000x40)
        (broadcastTo S10000x40 (shapeCast S1x40 x1 shapeCasts_S1x40_S1x40) broadcasts_S1x40_S10000x40) (ix2 p d)
      = rowBias x0 x1 (ix2 p d) := by
  rw [shapeCast_self, shapeCast_self]
  exact congrArg (x0 (ix2 p d) + ·) (broadcastTo_1b_ab_apply x1 broadcasts_S1x40_S10000x40 p d)

/-- The same as an equation of whole blocks. -/
theorem biasedBlock2 (x0 : Vec Ideal S10000x40 .f32) (x1 : Vec Ideal S1x40 .f32) :
    addf (F := Ideal) (φ := .f32) (shapeCast S10000x40 x0 shapeCasts_S10000x40_S10000x40)
        (broadcastTo S10000x40 (shapeCast S1x40 x1 shapeCasts_S1x40_S1x40) broadcasts_S1x40_S10000x40)
      = rowBias x0 x1 := by
  funext i
  obtain ⟨p, d, rfl⟩ : ∃ (p : Fin 10000) (d : Fin 40), i = ix2 p d := ⟨i 0, i 1, eq_ix2 i⟩
  exact biasedBlock2_at x0 x1 p d

/-- A row's greatest entry, kept as a column and copied beside every entry of the row. -/
theorem rowMaxBeside_at (y : FVec Ideal S10000x40 .f32) (p : Fin 10000) (d : Fin 40) :
    broadcastTo S10000x40
        (shapeCast S10000x1 (multiReduction (F := Ideal) .maximumf [1] S10000 y 0xFF800000#32 reduces_S10000x40_S10000 (.inl rfl) rfl)
          shapeCasts_S10000_S10000x1) broadcasts_S10000x1_S10000x40 (ix2 p d)
      = rowMax y p :=
  (KeepdimsColumn.broadcastTo_a1_ab_apply _ broadcasts_S10000x1_S10000x40 p d).trans
    ((KeepdimsColumn.shapeCast_a_a1_apply _ shapeCasts_S10000_S10000x1 p (0 : Fin 1)).trans
      (RowReduce.laneMax_at y 0xFF800000#32 reduces_S10000x40_S10000 (.inl rfl) rfl p))

/-- The logarithm of a row's sum of exponentials, kept as a column and copied beside every entry of the row. -/
theorem logSumBeside_at (z : FVec Ideal S10000x40 .f32) (p : Fin 10000) (d : Fin 40) :
    broadcastTo S10000x40
        (log (shapeCast S10000x1 (multiReduction (F := Ideal) .add [1] S10000 (exp z) 0x00000000#32 reduces_S10000x40_S10000 (.inl rfl) rfl)
          shapeCasts_S10000_S10000x1)) broadcasts_S10000x1_S10000x40 (ix2 p d)
      = Ideal.log (∑ k : Fin 40, Ideal.exp (z (ix2 p k))) :=
  (KeepdimsColumn.broadcastTo_a1_ab_apply _ broadcasts_S10000x1_S10000x40 p d).trans
    (congrArg Ideal.log ((KeepdimsColumn.shapeCast_a_a1_apply _ shapeCasts_S10000_S10000x1 p (0 : Fin 1)).trans
      (RowReduce.laneSum_at (exp z) 0x00000000#32 reduces_S10000x40_S10000 (.inl rfl) rfl p)))

/-- The rest of the step as a function of the biased block y: (y − row max) − log Σ e^(y − row max), at (p, d). -/
theorem logSoftmaxOf_at (y : FVec Ideal S10000x40 .f32) (p : Fin 10000) (d : Fin 40) :
    subf (subf y (broadcastTo S10000x40
        (shapeCast S10000x1 (multiReduction (F := Ideal) .maximumf [1] S10000 y 0xFF800000#32 reduces_S10000x40_S10000 (.inl rfl) rfl)
          shapeCasts_S10000_S10000x1) broadcasts_S10000x1_S10000x40))
      (broadcastTo S10000x40
        (log (shapeCast S10000x1 (multiReduction (F := Ideal) .add [1] S10000
          (exp (subf y (broadcastTo S10000x40
            (shapeCast S10000x1 (multiReduction (F := Ideal) .maximumf [1] S10000 y 0xFF800000#32 reduces_S10000x40_S10000 (.inl rfl) rfl)
              shapeCasts_S10000_S10000x1) broadcasts_S10000x1_S10000x40)))
          0x00000000#32 reduces_S10000x40_S10000 (.inl rfl) rfl)
          shapeCasts_S10000_S10000x1)) broadcasts_S10000x1_S10000x40) (ix2 p d)
      = logSoftmax y (ix2 p d) := by
  have hz : ∀ k : Fin 40, subf y (broadcastTo S10000x40
        (shapeCast S10000x1 (multiReduction (F := Ideal) .maximumf [1] S10000 y 0xFF800000#32 reduces_S10000x40_S10000 (.inl rfl) rfl)
          shapeCasts_S10000_S10000x1) broadcasts_S10000x1_S10000x40) (ix2 p k) = y (ix2 p k) - rowMax y p :=
    fun k => congrArg (y (ix2 p k) - ·) (rowMaxBeside_at y p k)
  refine (congrArg₂ (fun a b : EReal => a - b) (hz d) (logSumBeside_at _ p d)).trans ?_
  show _ - Ideal.log _ = (y (ix2 p d) - rowMax y p) - Ideal.log (∑ k : Fin 40, Ideal.exp (y (ix2 p k) - rowMax y p))
  exact congrArg (fun s : EReal => (y (ix2 p d) - rowMax y p) - Ideal.log s)
    (Finset.sum_congr rfl fun k _ => congrArg Ideal.exp (hz k))

/-- One step's result at (p, d): the log-softmax of the biased block. -/
theorem logSoftmaxBlock_at (x0 : Vec Ideal S10000x40 .f32) (x1 : Vec Ideal S1x40 .f32) (p : Fin 10000) (d : Fin 40) :
    k2_pay1 (F := Ideal) x0 x1 (ix2 p d) = logSoftmax (rowBias x0 x1) (ix2 p d) := by
  unfold k2_pay1
  refine (logSoftmaxOf_at _ p d).trans ?_
  exact congrArg (fun y : S10000x40.Idx → EReal => logSoftmax y (ix2 p d)) (biasedBlock2 x0 x1)

/-- The log-softmax at a row depends on that row only: two matrices with equal rows have equal log-softmax there. -/
theorem logSoftmax_row_congr {a a' n : ℕ} (x : (⟨2, ![a, n]⟩ : Shape).Idx → EReal) (y : (⟨2, ![a', n]⟩ : Shape).Idx → EReal)
    (p : Fin a) (r : Fin a') (h : ∀ k : Fin n, x (ix2 p k) = y (ix2 r k)) (d : Fin n) :
    logSoftmax x (ix2 p d) = logSoftmax y (ix2 r d) := by
  have hf : (fun k => x (ix2 p k)) = fun k => y (ix2 r k) := funext h
  have hm : rowMax x p = rowMax y r :=
    congrArg (fun f => (Finset.univ : Finset (Fin n)).fold max (Ideal.ofBits .f32 0xFF800000#32) f) hf
  have hs : rowExpSum x p = rowExpSum y r := by
    unfold rowExpSum
    rw [hm]
    exact Finset.sum_congr rfl fun k _ => by rw [h k]
  rw [logSoftmax_apply, logSoftmax_apply, h d, hm, hs]

/-- A row of the biased block is a row of the biased input, so the block's log-softmax there is the input's. -/
theorem blockRow_eq_logSoftmax (x0 : Vec Ideal S10000x40 .f32) (x1 : Vec Ideal S1x40 .f32)
    (X : S100000x40.Idx → EReal) (B : S1x40.Idx → EReal) (p : Fin 10000) (d : Fin 40) (i : S100000x40.Idx)
    (hd : (i 1).val = d.val) (hx : ∀ k : Fin 40, x0 (ix2 p k) = X (ix2 (i 0) k))
    (hb : ∀ k : Fin 40, x1 (ix2 (0 : Fin 1) k) = B (ix2 (0 : Fin 1) k)) :
    logSoftmax (rowBias x0 x1) (ix2 p d) = logSoftmax (rowBias X B) i := by
  have hi : i = ix2 (i 0) d :=
    funext fun a => Fin.ext (by match a with | ⟨0, _⟩ => rfl | ⟨1, _⟩ => exact hd)
  refine (logSoftmax_row_congr (rowBias x0 x1) (rowBias X B) p (i 0) (fun k => ?_) d).trans
    (congrArg (logSoftmax (rowBias X B)) hi.symm)
  exact congrArg₂ (fun u v : EReal => u + v) (hx k) (hb k)

variable (V : (c : Dev nD) → (b : Ref sig .tc) → Buf (Elt Ideal) ((c : Thread nD τ).loc b))

/-- Where the three blocks of step t sit: the input's and the output's row block is block t, on the column axis they
    start at 0, and the bias row's block is the whole row. -/
theorem blockIndices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the input's block t is entry (10000·t + p, k) of the input. -/
theorem inputBlock2_at (c : Dev nD) (t : Fin cfg2.N) (p : Fin 10000) (k : Fin 40) (i : S100000x40.Idx)
    (h0 : (i 0).val = 10000 * t.val + p.val) (h1 : (i 1).val = k.val) :
    (iblk2 V c 0 t : Vec Ideal S10000x40 .f32) (ix2 p k) = (V c main_v58 : S100000x40.Idx → EReal) i := by
  obtain ⟨e0, e1, -⟩ := blockIndices2 t
  unfold iblk2
  rw [View.read_apply]
  show (V c main_v58 : S100000x40.Idx → EReal) _ = _
  congr 1
  funext a
  apply Fin.ext
  match a with
  | ⟨0, _⟩ => show win2_0.index t (0 : Fin 2) * 10000 + 1 * p.val = (i 0).val; rw [e0, h0]; omega
  | ⟨1, _⟩ => show win2_0.index t (1 : Fin 2) * 40 + 1 * k.val = (i 1).val; rw [e1, h1]; omega

/-- The bias row's block at every step is the whole bias row. -/
theorem biasBlock2_at (c : Dev nD) (t : Fin cfg2.N) (k : Fin 40) :
    (iblk2 V c 1 t : Vec Ideal S1x40 .f32) (ix2 (0 : Fin 1) k) = (V c main_v59 : S1x40.Idx → EReal) (ix2 (0 : Fin 1) k) := by
  obtain ⟨-, -, e0, e1, -⟩ := blockIndices2 t
  unfold iblk2
  rw [View.read_apply]
  show (V c main_v59 : S1x40.Idx → EReal) _ = _
  congr 1
  funext a
  apply Fin.ext
  match a with
  | ⟨0, _⟩ => show win2_1.index t (0 : Fin 2) * 1 + 1 * 0 = 0; rw [e0]
  | ⟨1, _⟩ => show win2_1.index t (1 : Fin 2) * 40 + 1 * k.val = k.val; rw [e1]; omega

/-- What step t writes back is block t of the log-softmax of the biased input. -/
theorem flushed2_eq (c : Dev nD) (t : Fin cfg2.N) :
    (dat2 (F := Ideal) V c).flushed 2 t
      = ((cfg2.win 2).blk t).view.read (Elt Ideal)
          (logSoftmax (rowBias (V c main_v58 : S100000x40.Idx → EReal) (V c main_v59 : S1x40.Idx → EReal))) := by
  show (cfg2.win 2).cut (grid2.coords t) ((dat2 (F := Ideal) V c).after 2 t) = _
  rw [after2_2]
  unfold out2_2
  rw [View.canon_unit_zero zeroOffsets2]
  simp only [View.ld_unit_zero (S := S10000x40) zeroOffsets2, View.ld_unit_zero (S := S1x40) zeroOffsets2]
  obtain ⟨-, -, -, -, e0, e1⟩ := blockIndices2 t
  funext j
  obtain ⟨p, d, rfl⟩ : ∃ (p : Fin 10000) (d : Fin 40), j = ix2 p d := ⟨j 0, j 1, eq_ix2 j⟩
  refine (logSoftmaxBlock_at (iblk2 V c 0 t) (iblk2 V c 1 t) p d).trans ?_
  refine blockRow_eq_logSoftmax (iblk2 V c 0 t) (iblk2 V c 1 t) (V c main_v58) (V c main_v59) p d
    (((cfg2.win 2).blk t).view.emb (ix2 p d)) ?_ (fun k => ?_) (fun k => biasBlock2_at V c t k)
  · show win2_2.index t (1 : Fin 2) * 40 + 1 * d.val = d.val; rw [e1]; omega
  · exact inputBlock2_at V c t p k _
      (by show win2_2.index t (0 : Fin 2) * 10000 + 1 * p.val = 10000 * t.val + p.val; rw [e0]; omega) rfl

/-- An index of the output is in step t's block iff each coordinate is in the block's range on its axis. -/
theorem mem_block2 (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v60).slice (win2_2.rect t)).set ↔ _
  rw [View.set_slice_whole, Rect.mem_set_unit]
  exact Iff.rfl

/-- Every index of the output is in some step's block: row r is in block r / 10000. -/
theorem covered2 (i : S100000x40.Idx) : ∃ t : Fin cfg2.N, (cfg2.win 2).flush t = true ∧ i ∈ ((cfg2.win 2).blk t).view.set := by
  have hN : cfg2.N = 10 := N_2
  have hi0 : (i 0).val < 100000 := (i 0).isLt
  have hi1 : (i 1).val < 40 := (i 1).isLt
  have ht : (i 0).val / 10000 < cfg2.N := by rw [hN]; omega
  refine ⟨⟨(i 0).val / 10000, ht⟩, flush2_2 _, ?_⟩
  obtain ⟨-, -, -, -, e0, e1⟩ := blockIndices2 ⟨(i 0).val / 10000, ht⟩
  rw [mem_block2]
  intro a
  match a with
  | ⟨0, _⟩ =>
    show win2_2.index _ (0 : Fin 2) * 10000 ≤ (i 0).val ∧ (i 0).val < win2_2.index _ (0 : Fin 2) * 10000 + 10000
    rw [e0]; show (i 0).val / 10000 * 10000 ≤ (i 0).val ∧ (i 0).val < (i 0).val / 10000 * 10000 + 10000; omega
  | ⟨1, _⟩ =>
    show win2_2.index _ (1 : Fin 2) * 40 ≤ (i 1).val ∧ (i 1).val < win2_2.index _ (1 : Fin 2) * 40 + 40
    rw [e1]; omega

/-- After the 10 steps the output array holds the log-softmax of the biased input. -/
theorem final2 (c : Dev nD) : (dat2 (F := Ideal) V c).arrAt 2 cfg2.N
    = logSoftmax (rowBias (V c main_v58 : S100000x40.Idx → EReal) (V c main_v59 : S1x40.Idx → EReal)) :=
  (dat2 (F := Ideal) V c).arrAt_eq_of_cover 2 _ (fun t _ => flushed2_eq V c t) covered2

end Cert.KernelIdeal.RegionValue

end
-- ==== Proof.KernelValue.lean ====
/-
  The idealized kernel program's result array as one function of the argument arrays. The contents of the buffers at
  each boundary between a host stretch and a dense-layer region are followed from the launch memory: the endpoint
  vectors and the edge normalization depend on the edge array alone and no later step writes them; the first region
  leaves x · w1; the stretch after it aggregates that and lays the first bias out as a row; the second region leaves
  elu(aggregate + bias) · w2; the next stretch aggregates again; the last region leaves the row-wise log-softmax of
  aggregate + second bias.
-/
import proofs.«167873_j25907242729900_2_alg».proof.Proof.Gen.KernelIdeal.Frame
import proofs.«167873_j25907242729900_2_alg».proof.Proof.KernelStages
import proofs.«167873_j25907242729900_2_alg».proof.Proof.Region0
import proofs.«167873_j25907242729900_2_alg».proof.Proof.Region1
import proofs.«167873_j25907242729900_2_alg».proof.Proof.Region2
import proofs.«167873_j25907242729900_2_alg».proof.Proof.Layers

noncomputable section

namespace Cert.KernelIdeal.ResultValue

open Cert.KernelIdeal Cert.KernelIdeal.Gen Idealize.ShloMosaic Idealize.ShloMosaic.TcCoe Idealize.SL.Sem
open Idealize.ShloMosaic.StableHlo
open Cert.GcnStages Cert.GcnLayers

variable (m : (ℓ : Loc nD τ sig) → Buf (Elt Ideal) ℓ) (ρ : Dev nD → PrngReg) (c : Dev nD)

set_option quotPrecheck false

local notation "aX" => (m ((c : Thread nD τ).loc main_arg0) : S100000x512.Idx → EReal)
local notation "aW1" => (m ((c : Thread nD τ).loc main_arg1) : S512x16.Idx → EReal)
local notation "aB1" => (m ((c : Thread nD τ).loc main_arg2) : S16.Idx → EReal)
local notation "aW2" => (m ((c : Thread nD τ).loc main_arg3) : S16x40.Idx → EReal)
local notation "aB2" => (m ((c : Thread nD τ).loc main_arg4) : S40.Idx → EReal)
local notation "aE" => m ((c : Thread nD τ).loc main_arg5)

/-! ## At the first region's entry -/

theorem src3 : W3 m ρ c (main_v5 : DevRef τ sig) = srcOf (F := Ideal) aE := HostStages.pre_src (W0 m ρ c)
theorem dst3 : W3 m ρ c (main_v6 : DevRef τ sig) = dstOf (F := Ideal) aE := HostStages.pre_dst (W0 m ρ c)
theorem norm3 : W3 m ρ c (main_v29 : DevRef τ sig) = normOf (F := Ideal) (srcOf aE) (dstOf aE) := HostStages.pre_norm (W0 m ρ c)
theorem x3 : W3 m ρ c (main_arg0 : DevRef τ sig) = m ((c : Thread nD τ).loc main_arg0) := HostStages.pre_arg0 (W0 m ρ c)
theorem w13 : W3 m ρ c (main_arg1 : DevRef τ sig) = m ((c : Thread nD τ).loc main_arg1) := HostStages.pre_arg1 (W0 m ρ c)
theorem b13 : W3 m ρ c (main_arg2 : DevRef τ sig) = m ((c : Thread nD τ).loc main_arg2) := HostStages.pre_arg2 (W0 m ρ c)
theorem w23 : W3 m ρ c (main_arg3 : DevRef τ sig) = m ((c : Thread nD τ).loc main_arg3) := HostStages.pre_arg3 (W0 m ρ c)
theorem b23 : W3 m ρ c (main_arg4 : DevRef τ sig) = m ((c : Thread nD τ).loc main_arg4) := HostStages.pre_arg4 (W0 m ρ c)

/-! ## At the first region's exit -/

theorem h4 : W4 m ρ c (main_v30 : DevRef τ sig) = ExactProduct.mm aX aW1 := by
  refine (W4_arr m ρ c 2).trans ((RegionValue.final0 (V3 m ρ) c).trans ?_)
  show ExactProduct.mm (W3 m ρ c (main_arg0 : DevRef τ sig) : S100000x512.Idx → EReal) (W3 m ρ c (main_arg1 : DevRef τ sig) : S512x16.Idx → EReal) = _
  rw [x3 m ρ c, w13 m ρ c]

theorem src4 : W4 m ρ c (main_v5 : DevRef τ sig) = srcOf (F := Ideal) aE := (W4_of_ne m ρ c main_v5 (by decide)).trans (src3 m ρ c)
theorem dst4 : W4 m ρ c (main_v6 : DevRef τ sig) = dstOf (F := Ideal) aE := (W4_of_ne m ρ c main_v6 (by decide)).trans (dst3 m ρ c)
theorem norm4 : W4 m ρ c (main_v29 : DevRef τ sig) = normOf (F := Ideal) (srcOf aE) (dstOf aE) :=
  (W4_of_ne m ρ c main_v29 (by decide)).trans (norm3 m ρ c)
theorem b14 : W4 m ρ c (main_arg2 : DevRef τ sig) = m ((c : Thread nD τ).loc main_arg2) := (W4_of_ne m ρ c main_arg2 (by decide)).trans (b13 m ρ c)
theorem w24 : W4 m ρ c (main_arg3 : DevRef τ sig) = m ((c : Thread nD τ).loc main_arg3) := (W4_of_ne m ρ c main_arg3 (by decide)).trans (w23 m ρ c)
theorem b24 : W4 m ρ c (main_arg4 : DevRef τ sig) = m ((c : Thread nD τ).loc main_arg4) := (W4_of_ne m ρ c main_arg4 (by decide)).trans (b23 m ρ c)

/-! ## At the second region's entry -/

theorem agg5 : W5 m ρ c (main_v43 : DevRef τ sig)
    = agg16 (F := Ideal) (ExactProduct.mm aX aW1) (normOf (srcOf aE) (dstOf aE)) (srcOf aE) (dstOf aE) := by
  refine (HostStages.mid_agg (W4 m ρ c)).trans ?_
  rw [h4 m ρ c, norm4 m ρ c, src4 m ρ c, dst4 m ρ c]

theorem bias5 : W5 m ρ c (main_v44 : DevRef τ sig) = shapeCast S1x16 aB1 Facts₀.shapeCasts_S16_S1x16 := by
  refine (HostStages.mid_bias (W4 m ρ c)).trans ?_
  rw [b14 m ρ c]

theorem src5 : W5 m ρ c (main_v5 : DevRef τ sig) = srcOf (F := Ideal) aE := (HostStages.mid_src (W4 m ρ c)).trans (src4 m ρ c)
theorem dst5 : W5 m ρ c (main_v6 : DevRef τ sig) = dstOf (F := Ideal) aE := (HostStages.mid_dst (W4 m ρ c)).trans (dst4 m ρ c)
theorem norm5 : W5 m ρ c (main_v29 : DevRef τ sig) = normOf (F := Ideal) (srcOf aE) (dstOf aE) :=
  (HostStages.mid_norm (W4 m ρ c)).trans (norm4 m ρ c)
theorem w25 : W5 m ρ c (main_arg3 : DevRef τ sig) = m ((c : Thread nD τ).loc main_arg3) := (HostStages.mid_arg3 (W4 m ρ c)).trans (w24 m ρ c)
theorem b25 : W5 m ρ c (main_arg4 : DevRef τ sig) = m ((c : Thread nD τ).loc main_arg4) := (HostStages.mid_arg4 (W4 m ρ c)).trans (b24 m ρ c)

/-! ## At the second region's exit -/

theorem h6 : W6 m ρ c (main_v45 : DevRef τ sig)
    = ExactProduct.mm
        (elu (rowBias (agg16 (F := Ideal) (ExactProduct.mm aX aW1) (normOf (srcOf aE) (dstOf aE)) (srcOf aE) (dstOf aE))
          (shapeCast S1x16 aB1 Facts₀.shapeCasts_S16_S1x16)))
        aW2 := by
  refine (W6_arr m ρ c 3).trans ((RegionValue.final1 (V5 m ρ) c).trans ?_)
  show ExactProduct.mm
      (elu (rowBias (W5 m ρ c (main_v43 : DevRef τ sig) : S100000x16.Idx → EReal) (W5 m ρ c (main_v44 : DevRef τ sig) : S1x16.Idx → EReal)))
      (W5 m ρ c (main_arg3 : DevRef τ sig) : S16x40.Idx → EReal) = _
  rw [agg5 m ρ c, bias5 m ρ c, w25 m ρ c]

theorem src6 : W6 m ρ c (main_v5 : DevRef τ sig) = srcOf (F := Ideal) aE := (W6_of_ne m ρ c main_v5 (by decide)).trans (src5 m ρ c)
theorem dst6 : W6 m ρ c (main_v6 : DevRef τ sig) = dstOf (F := Ideal) aE := (W6_of_ne m ρ c main_v6 (by decide)).trans (dst5 m ρ c)
theorem norm6 : W6 m ρ c (main_v29 : DevRef τ sig) = normOf (F := Ideal) (srcOf aE) (dstOf aE) :=
  (W6_of_ne m ρ c main_v29 (by decide)).trans (norm5 m ρ c)
theorem b26 : W6 m ρ c (main_arg4 : DevRef τ sig) = m ((c : Thread nD τ).loc main_arg4) := (W6_of_ne m ρ c main_arg4 (by decide)).trans (b25 m ρ c)

/-! ## At the last region's entry, and the result -/

theorem agg7 : W7 m ρ c (main_v58 : DevRef τ sig)
    = agg40 (F := Ideal)
        (ExactProduct.mm
          (elu (rowBias (agg16 (F := Ideal) (ExactProduct.mm aX aW1) (normOf (srcOf aE) (dstOf aE)) (srcOf aE) (dstOf aE))
            (shapeCast S1x16 aB1 Facts₀.shapeCasts_S16_S1x16)))
          aW2)
        (normOf (srcOf aE) (dstOf aE)) (srcOf aE) (dstOf aE) := by
  refine (HostStages.last_agg (W6 m ρ c)).trans ?_
  rw [h6 m ρ c, norm6 m ρ c, src6 m ρ c, dst6 m ρ c]

theorem bias7 : W7 m ρ c (main_v59 : DevRef τ sig) = shapeCast S1x40 aB2 Facts₀.shapeCasts_S40_S1x40 := by
  refine (HostStages.last_bias (W6 m ρ c)).trans ?_
  rw [b26 m ρ c]

/-- The result array after the run: the row-wise log-softmax of the second aggregation plus the second bias. -/
theorem result : W8 m ρ c (main_v60 : DevRef τ sig)
    = logSoftmax (rowBias
        (agg40 (F := Ideal)
          (ExactProduct.mm
            (elu (rowBias (agg16 (F := Ideal) (ExactProduct.mm aX aW1) (normOf (srcOf aE) (dstOf aE)) (srcOf aE) (dstOf aE))
              (shapeCast S1x16 aB1 Facts₀.shapeCasts_S16_S1x16)))
            aW2)
          (normOf (srcOf aE) (dstOf aE)) (srcOf aE) (dstOf aE))
        (shapeCast S1x40 aB2 Facts₀.shapeCasts_S40_S1x40)) := by
  refine (W8_arr m ρ c 2).trans ((RegionValue.final2 (V7 m ρ) c).trans ?_)
  show logSoftmax (rowBias (W7 m ρ c (main_v58 : DevRef τ sig) : S100000x40.Idx → EReal) (W7 m ρ c (main_v59 : DevRef τ sig) : S1x40.Idx → EReal)) = _
  rw [agg7 m ρ c, bias7 m ρ c]

end Cert.KernelIdeal.ResultValue

end
-- ==== Proof.RefRun.lean ====
/- The reference computation as one straight line of tensor operations.

   The reference is a two-layer graph convolution: each layer multiplies the node features by a
   weight matrix, scales every edge (self loops appended) by the inverse square roots of its
   endpoints' in-degrees, sums the scaled source rows into the target rows and adds a bias; an
   exponential-linear activation sits between the layers and a row-wise log-softmax after the
   second. Its helper functions (the masked selects, the activation, the log-softmax) are
   substituted at their call sites, so the whole program is a list of operations, each writing
   one buffer from buffers written earlier. The list is cut into six consecutive stretches at
   the values a layer-by-layer argument needs: the edge weights, the pre-activation, the second
   product, the second edge weights, the logits, the result. The final contents of every buffer
   are then the fold of the operations' results over the contents at launch. -/
import proofs.«167873_j25907242729900_2_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch

A helper function's operations are listed over the buffers its call site gives it; a stretch ends where a
helper is entered or left, and at the six cut points. -/

/-- The edge list's two rows, the first feature product, the node indices appended to both rows, and the in-degree count (a scatter-add of ones) with its positivity mask and inverse square root: `%0` … `%cst_2`. -/
abbrev opsA0 : List (HloOp τ sig (Elt F)) :=
  [ StableHlo.unary main_arg5 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg5 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.binary main_arg0 main_arg1 main_v4 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    StableHlo.nullary main_v5 (iotaInDim S100000 32 0),
    StableHlo.binary main_v1 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.binary main_v3 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v8 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S3300000x1 ![0] bcast_S3300000_S3300000x1_0 : (⟨S3300000, .i32⟩ : BufTy).Contents (Elt F) → (⟨S3300000x1, .i32⟩ : BufTy).Contents (Elt F)),
    StableHlo.ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32) ]

theorem opsA0_sub : (opsA0 : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub ..⟩

theorem opsA0_fresh : (opsA0 : List (HloOp τ sig (Elt F))).Forall fun op => op.fresh = ∅ := by
  simp only [List.Forall]; repeat' constructor

/-- The first masked inverse square root (zero where the degree is not positive): the three operations of the select helper, producing `%15`. -/
abbrev opsA1 : List (HloOp τ sig (Elt F)) :=
  [ StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v13 : StableHlo.TRef sig ⟨S100000, .i1⟩) (.of main_v14 : StableHlo.TRef sig ⟨S100000, .f32⟩) (.of main_call0_v1 : StableHlo.TRef sig ⟨S100000, .f32⟩) (.of main_v15 : StableHlo.TRef sig ⟨S100000, .f32⟩) select ]

theorem opsA1_sub : (opsA1 : List (HloOp τ sig (Elt F))).Forall fun op => op.bufs ⊆ tcRefs τ sig :=
  ⟨unary_bufs_sub .., unary_bufs_sub .., ternary_bufs_sub ..⟩

theorem opsA1_fresh : (opsA1 : List (HloOp τ sig (Elt F))).Forall fun op => op.fresh = ∅ := by
  simp only [List.Forall]; repeat' constructor

/-- Both index rows wrapped into range, the degree factor gathered at each end of every edge, and their product, the edge weight `%30`. -/
abbrev opsA2 : List (HloOp τ sig (Elt F)) :=
  [ StableHlo.nullary main_c (constantI S_ 32 0#32),
    StableHlo.unary main_c main_v16 (broadcastInDim S3300000 ![] bcast_S_S3300000 : (⟨S_, .i32⟩ : BufTy).Contents (Elt F) → (⟨S3300000, .i32⟩ : BufTy).Contents (Elt F)),
    StableHlo.binary main_v6 main_v16 main_v17 (cmpi .slt : (⟨S3300000, .i32⟩ : BufTy).Contents (Elt F) → (⟨S3300000, .i32⟩ : BufTy).Contents (Elt F) → (⟨S3300000, .i1⟩ : BufTy).Contents (Elt F)),
    StableHlo.nullary main_c_3 (constantI S_ 32 100000#32),
    StableHlo.unary main_c_3 main_v18 (broadcastInDim S3300000 ![] bcast_S_S3300000 : (⟨S_, .i32⟩ : BufTy).Contents (Elt F) → (⟨S3300000, .i32⟩ : BufTy).Contents (Elt F)),
    StableHlo.binary main_v6 main_v18 main_v19 (addi : (⟨S3300000, .i32⟩ : BufTy).Contents (Elt F) → (⟨S3300000, .i32⟩ : BufTy).Contents (Elt F) → (⟨S3300000, .i32⟩ : BufTy).Contents (Elt F)),
    StableHlo.ternary main_v17 main_v19 main_v6 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v20 main_v21 (broadcastInDim S3300000x1 ![0] bcast_S3300000_S3300000x1_0 : (⟨S3300000, .i32⟩ : BufTy).Contents (Elt F) → (⟨S3300000x1, .i32⟩ : BufTy).Contents (Elt F)),
    StableHlo.binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_4 (constantI S_ 32 0#32),
    StableHlo.unary main_c_4 main_v23 (broadcastInDim S3300000 ![] bcast_S_S3300000 : (⟨S_, .i32⟩ : BufTy).Contents (Elt F) → (⟨S3300000, .i32⟩ : BufTy).Contents (Elt F)),
    StableHlo.binary main_v7 main_v23 main_v24 (cmpi .slt : (⟨S3300000, .i32⟩ : BufTy).Contents (Elt F) → (⟨S3300000, .i32⟩ : BufTy).Contents (Elt F) → (⟨S3300000, .i1⟩ : BufTy).Contents (Elt F)),
    StableHlo.nullary main_c_5 (constantI S_ 32 100000#32),
    StableHlo.unary main_c_5 main_v25 (broadcastInDim S3300000 ![] bcast_S_S3300000 : (⟨S_, .i32⟩ : BufTy).Contents (Elt F) → (⟨S3300000, .i32⟩ : BufTy).Contents (Elt F)),
    StableHlo.binary main_v7 main_v25 main_v26 (addi : (⟨S3300000, .i32⟩ : BufTy).Contents (Elt F) → (⟨S3300000, .i32⟩ : BufTy).Contents (Elt F) → (⟨S3300000, .i32⟩ : BufTy).Contents (Elt F)),
    StableHlo.ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v27 main_v28 (broadcastInDim S3300000x1 ![0] bcast_S3300000_S3300000x1_0 : (⟨S3300000, .i32⟩ : BufTy).Contents (Elt F) → (⟨S3300000x1, .i32⟩ : BufTy).Contents (Elt F)),
    StableHlo.binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v22 main_v29 main_v30 (mulf : (⟨S3300000, .f32⟩ : BufTy).Contents (Elt F) → (⟨S3300000, .f32⟩ : BufTy).Contents (Elt F) → (⟨S3300000, .f32⟩ : BufTy).Contents (Elt F)) ]

theorem opsA2_sub : (opsA2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem opsA2_fresh : (opsA2 : List (HloOp τ sig (Elt F))).Forall fun op => op.fresh = ∅ := by
  simp only [List.Forall]; repeat' constructor

/-- From `%0` through the edge weights `%30`: the stretches above in order, the select helper's operations in place. -/
abbrev opsA : List (HloOp τ sig (Elt F)) :=
  [ StableHlo.unary main_arg5 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg5 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.binary main_arg0 main_arg1 main_v4 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    StableHlo.nullary main_v5 (iotaInDim S100000 32 0),
    StableHlo.binary main_v1 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.binary main_v3 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v8 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S3300000x1 ![0] bcast_S3300000_S3300000x1_0 : (⟨S3300000, .i32⟩ : BufTy).Contents (Elt F) → (⟨S3300000x1, .i32⟩ : BufTy).Contents (Elt F)),
    StableHlo.ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v13 : StableHlo.TRef sig ⟨S100000, .i1⟩) (.of main_v14 : StableHlo.TRef sig ⟨S100000, .f32⟩) (.of main_call0_v1 : StableHlo.TRef sig ⟨S100000, .f32⟩) (.of main_v15 : StableHlo.TRef sig ⟨S100000, .f32⟩) select,
    StableHlo.nullary main_c (constantI S_ 32 0#32),
    StableHlo.unary main_c main_v16 (broadcastInDim S3300000 ![] bcast_S_S3300000 : (⟨S_, .i32⟩ : BufTy).Contents (Elt F) → (⟨S3300000, .i32⟩ : BufTy).Contents (Elt F)),
    StableHlo.binary main_v6 main_v16 main_v17 (cmpi .slt : (⟨S3300000, .i32⟩ : BufTy).Contents (Elt F) → (⟨S3300000, .i32⟩ : BufTy).Contents (Elt F) → (⟨S3300000, .i1⟩ : BufTy).Contents (Elt F)),
    StableHlo.nullary main_c_3 (constantI S_ 32 100000#32),
    StableHlo.unary main_c_3 main_v18 (broadcastInDim S3300000 ![] bcast_S_S3300000 : (⟨S_, .i32⟩ : BufTy).Contents (Elt F) → (⟨S3300000, .i32⟩ : BufTy).Contents (Elt F)),
    StableHlo.binary main_v6 main_v18 main_v19 (addi : (⟨S3300000, .i32⟩ : BufTy).Contents (Elt F) → (⟨S3300000, .i32⟩ : BufTy).Contents (Elt F) → (⟨S3300000, .i32⟩ : BufTy).Contents (Elt F)),
    StableHlo.ternary main_v17 main_v19 main_v6 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v20 main_v21 (broadcastInDim S3300000x1 ![0] bcast_S3300000_S3300000x1_0 : (⟨S3300000, .i32⟩ : BufTy).Contents (Elt F) → (⟨S3300000x1, .i32⟩ : BufTy).Contents (Elt F)),
    StableHlo.binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_4 (constantI S_ 32 0#32),
    StableHlo.unary main_c_4 main_v23 (broadcastInDim S3300000 ![] bcast_S_S3300000 : (⟨S_, .i32⟩ : BufTy).Contents (Elt F) → (⟨S3300000, .i32⟩ : BufTy).Contents (Elt F)),
    StableHlo.binary main_v7 main_v23 main_v24 (cmpi .slt : (⟨S3300000, .i32⟩ : BufTy).Contents (Elt F) → (⟨S3300000, .i32⟩ : BufTy).Contents (Elt F) → (⟨S3300000, .i1⟩ : BufTy).Contents (Elt F)),
    StableHlo.nullary main_c_5 (constantI S_ 32 100000#32),
    StableHlo.unary main_c_5 main_v25 (broadcastInDim S3300000 ![] bcast_S_S3300000 : (⟨S_, .i32⟩ : BufTy).Contents (Elt F) → (⟨S3300000, .i32⟩ : BufTy).Contents (Elt F)),
    StableHlo.binary main_v7 main_v25 main_v26 (addi : (⟨S3300000, .i32⟩ : BufTy).Contents (Elt F) → (⟨S3300000, .i32⟩ : BufTy).Contents (Elt F) → (⟨S3300000, .i32⟩ : BufTy).Contents (Elt F)),
    StableHlo.ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v27 main_v28 (broadcastInDim S3300000x1 ![0] bcast_S3300000_S3300000x1_0 : (⟨S3300000, .i32⟩ : BufTy).Contents (Elt F) → (⟨S3300000x1, .i32⟩ : BufTy).Contents (Elt F)),
    StableHlo.binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v22 main_v29 main_v30 (mulf : (⟨S3300000, .f32⟩ : BufTy).Contents (Elt F) → (⟨S3300000, .f32⟩ : BufTy).Contents (Elt F) → (⟨S3300000, .f32⟩ : BufTy).Contents (Elt F)) ]

theorem opsA_eq : (opsA : List (HloOp τ sig (Elt F))) = opsA0 ++ (opsA1 ++ (opsA2)) := rfl

/-- The first layer's aggregation: rows of `%4` gathered at the sources, scaled by the edge weight, scatter-added at the targets, plus the bias: `%c_6` … `%46`. -/
abbrev opsB : List (HloOp τ sig (Elt F)) :=
  [ StableHlo.nullary main_c_6 (constantI S_ 32 0#32),
    StableHlo.unary main_c_6 main_v31 (broadcastInDim S3300000 ![] bcast_S_S3300000 : (⟨S_, .i32⟩ : BufTy).Contents (Elt F) → (⟨S3300000, .i32⟩ : BufTy).Contents (Elt F)),
    StableHlo.binary main_v6 main_v31 main_v32 (cmpi .slt : (⟨S3300000, .i32⟩ : BufTy).Contents (Elt F) → (⟨S3300000, .i32⟩ : BufTy).Contents (Elt F) → (⟨S3300000, .i1⟩ : BufTy).Contents (Elt F)),
    StableHlo.nullary main_c_7 (constantI S_ 32 100000#32),
    StableHlo.unary main_c_7 main_v33 (broadcastInDim S3300000 ![] bcast_S_S3300000 : (⟨S_, .i32⟩ : BufTy).Contents (Elt F) → (⟨S3300000, .i32⟩ : BufTy).Contents (Elt F)),
    StableHlo.binary main_v6 main_v33 main_v34 (addi : (⟨S3300000, .i32⟩ : BufTy).Contents (Elt F) → (⟨S3300000, .i32⟩ : BufTy).Contents (Elt F) → (⟨S3300000, .i32⟩ : BufTy).Contents (Elt F)),
    StableHlo.ternary main_v32 main_v34 main_v6 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v35 main_v36 (broadcastInDim S3300000x1 ![0] bcast_S3300000_S3300000x1_0 : (⟨S3300000, .i32⟩ : BufTy).Contents (Elt F) → (⟨S3300000x1, .i32⟩ : BufTy).Contents (Elt F)),
    StableHlo.binary main_v4 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    StableHlo.unary main_v30 main_v38 (broadcastInDim S3300000x1 ![0] bcast_S3300000_S3300000x1_0 : (⟨S3300000, .f32⟩ : BufTy).Contents (Elt F) → (⟨S3300000x1, .f32⟩ : BufTy).Contents (Elt F)),
    StableHlo.unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    StableHlo.binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    StableHlo.nullary main_cst_8 (constant S_ .f32 0x00000000#32),
    StableHlo.unary main_cst_8 main_v41 (broadcastInDim S100000x16 ![] bcast_S_S100000x16 : (⟨S_, .f32⟩ : BufTy).Contents (Elt F) → (⟨S100000x16, .f32⟩ : BufTy).Contents (Elt F)),
    StableHlo.unary main_v7 main_v42 (broadcastInDim S3300000x1 ![0] bcast_S3300000_S3300000x1_0 : (⟨S3300000, .i32⟩ : BufTy).Contents (Elt F) → (⟨S3300000x1, .i32⟩ : BufTy).Contents (Elt F)),
    StableHlo.ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    StableHlo.unary main_arg2 main_v44 (broadcastInDim S1x16 ![1] bcast_S16_S1x16_1 : (⟨S16, .f32⟩ : BufTy).Contents (Elt F) → (⟨S1x16, .f32⟩ : BufTy).Contents (Elt F)),
    StableHlo.unary main_v44 main_v45 (broadcastInDim S100000x16 ![0, 1] bcast_S1x16_S100000x16_0_1 : (⟨S1x16, .f32⟩ : BufTy).Contents (Elt F) → (⟨S100000x16, .f32⟩ : BufTy).Contents (Elt F)),
    StableHlo.binary main_v43 main_v45 main_v46 (addf : (⟨S100000x16, .f32⟩ : BufTy).Contents (Elt F) → (⟨S100000x16, .f32⟩ : BufTy).Contents (Elt F) → (⟨S100000x16, .f32⟩ : BufTy).Contents (Elt F)) ]

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

theorem opsB_fresh : (opsB : List (HloOp τ sig (Elt F))).Forall fun op => op.fresh = ∅ := by
  simp only [List.Forall]; repeat' constructor

/-- The activation's two positivity masks of `%46` and the zero constant it substitutes: its first seven operations. -/
abbrev opsC0 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x16, .f32⟩) (broadcastInDim S100000x16 ![] bcast_S_S100000x16),
    StableHlo.TRef.binary (.of main_v46 : StableHlo.TRef sig ⟨S100000x16, .f32⟩) (.of main_call1_v0 : StableHlo.TRef sig ⟨S100000x16, .f32⟩) (.of main_call1_v1 : StableHlo.TRef sig ⟨S100000x16, .i1⟩) (cmpf .ogt),
    StableHlo.TRef.nullary (.of main_call1_cst_0 : StableHlo.TRef sig ⟨S_, .f32⟩) (constant S_ .f32 0x00000000#32),
    StableHlo.TRef.unary (.of main_call1_cst_0 : StableHlo.TRef sig ⟨S_, .f32⟩) (.of main_call1_v2 : StableHlo.TRef sig ⟨S100000x16, .f32⟩) (broadcastInDim S100000x16 ![] bcast_S_S100000x16),
    StableHlo.TRef.binary (.of main_v46 : StableHlo.TRef sig ⟨S100000x16, .f32⟩) (.of main_call1_v2 : StableHlo.TRef sig ⟨S100000x16, .f32⟩) (.of main_call1_v3 : StableHlo.TRef sig ⟨S100000x16, .i1⟩) (cmpf .ogt),
    StableHlo.TRef.nullary (.of main_call1_cst_1 : StableHlo.TRef sig ⟨S_, .f32⟩) (constant S_ .f32 0x00000000#32) ]

theorem opsC0_sub : (opsC0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub ..⟩

theorem opsC0_fresh : (opsC0 : List (HloOp τ sig (Elt F))).Forall fun op => op.fresh = ∅ := by
  simp only [List.Forall]; repeat' constructor

/-- The activation's inner select (zero where `%46` is positive): three operations. -/
abbrev opsC1 : List (HloOp τ sig (Elt F)) :=
  [ StableHlo.TRef.unary (.of main_call1_cst_1 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S100000x16, .f32⟩) (broadcastInDim S100000x16 ![] bcast_S_S100000x16),
    StableHlo.TRef.ternary (.of main_call1_v3 : StableHlo.TRef sig ⟨S100000x16, .i1⟩) (.of main_call1_call0_v1 : StableHlo.TRef sig ⟨S100000x16, .f32⟩) (.of main_v46 : StableHlo.TRef sig ⟨S100000x16, .f32⟩) (.of main_call1_v4 : StableHlo.TRef sig ⟨S100000x16, .f32⟩) select ]

theorem opsC1_sub : (opsC1 : List (HloOp τ sig (Elt F))).Forall fun op => op.bufs ⊆ tcRefs τ sig :=
  ⟨unary_bufs_sub .., unary_bufs_sub .., ternary_bufs_sub ..⟩

theorem opsC1_fresh : (opsC1 : List (HloOp τ sig (Elt F))).Forall fun op => op.fresh = ∅ := by
  simp only [List.Forall]; repeat' constructor

/-- The activation's `expm1` of that and its product with one: four operations. -/
abbrev opsC2 : List (HloOp τ sig (Elt F)) :=
  [ StableHlo.TRef.unary (.of main_call1_v4 : StableHlo.TRef sig ⟨S100000x16, .f32⟩) (.of main_call1_v5 : StableHlo.TRef sig ⟨S100000x16, .f32⟩) Host.expm1,
    StableHlo.TRef.nullary (.of main_call1_cst_2 : StableHlo.TRef sig ⟨S_, .f32⟩) (constant S_ .f32 0x3F800000#32),
    StableHlo.TRef.unary (.of main_call1_cst_2 : StableHlo.TRef sig ⟨S_, .f32⟩) (.of main_call1_v6 : StableHlo.TRef sig ⟨S100000x16, .f32⟩) (broadcastInDim S100000x16 ![] bcast_S_S100000x16),
    StableHlo.TRef.binary (.of main_call1_v6 : StableHlo.TRef sig ⟨S100000x16, .f32⟩) (.of main_call1_v5 : StableHlo.TRef sig ⟨S100000x16, .f32⟩) (.of main_call1_v7 : StableHlo.TRef sig ⟨S100000x16, .f32⟩) mulf ]

theorem opsC2_sub : (opsC2 : List (HloOp τ sig (Elt F))).Forall fun op => op.bufs ⊆ tcRefs τ sig :=
  ⟨unary_bufs_sub .., nullary_bufs_sub .., unary_bufs_sub .., binary_bufs_sub ..⟩

theorem opsC2_fresh : (opsC2 : List (HloOp τ sig (Elt F))).Forall fun op => op.fresh = ∅ := by
  simp only [List.Forall]; repeat' constructor

/-- The activation's outer select between `%46` and that product, the value `%47`. -/
abbrev opsC3 : List (HloOp τ sig (Elt F)) :=
  [ StableHlo.TRef.ternary (.of main_call1_v1 : StableHlo.TRef sig ⟨S100000x16, .i1⟩) (.of main_v46 : StableHlo.TRef sig ⟨S100000x16, .f32⟩) (.of main_call1_v7 : StableHlo.TRef sig ⟨S100000x16, .f32⟩) (.of main_v47 : StableHlo.TRef sig ⟨S100000x16, .f32⟩) select ]

theorem opsC3_sub : (opsC3 : List (HloOp τ sig (Elt F))).Forall fun op => op.bufs ⊆ tcRefs τ sig :=
  ternary_bufs_sub ..

theorem opsC3_fresh : (opsC3 : List (HloOp τ sig (Elt F))).Forall fun op => op.fresh = ∅ := by
  simp only [List.Forall]; repeat' constructor

/-- The second feature product `%48`. -/
abbrev opsC4 : List (HloOp τ sig (Elt F)) :=
  [ StableHlo.binary main_v47 main_arg3 main_v48 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

theorem opsC4_sub : (opsC4 : List (HloOp τ sig (Elt F))).Forall fun op => op.bufs ⊆ tcRefs τ sig :=
  binary_bufs_sub ..

theorem opsC4_fresh : (opsC4 : List (HloOp τ sig (Elt F))).Forall fun op => op.fresh = ∅ := by
  simp only [List.Forall]; repeat' constructor

/-- The activation's operations in order (its own eleven, its two selects' three and one), then the second feature product `%48`. -/
abbrev opsC : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x16, .f32⟩) (broadcastInDim S100000x16 ![] bcast_S_S100000x16),
    StableHlo.TRef.binary (.of main_v46 : StableHlo.TRef sig ⟨S100000x16, .f32⟩) (.of main_call1_v0 : StableHlo.TRef sig ⟨S100000x16, .f32⟩) (.of main_call1_v1 : StableHlo.TRef sig ⟨S100000x16, .i1⟩) (cmpf .ogt),
    StableHlo.TRef.nullary (.of main_call1_cst_0 : StableHlo.TRef sig ⟨S_, .f32⟩) (constant S_ .f32 0x00000000#32),
    StableHlo.TRef.unary (.of main_call1_cst_0 : StableHlo.TRef sig ⟨S_, .f32⟩) (.of main_call1_v2 : StableHlo.TRef sig ⟨S100000x16, .f32⟩) (broadcastInDim S100000x16 ![] bcast_S_S100000x16),
    StableHlo.TRef.binary (.of main_v46 : StableHlo.TRef sig ⟨S100000x16, .f32⟩) (.of main_call1_v2 : StableHlo.TRef sig ⟨S100000x16, .f32⟩) (.of main_call1_v3 : StableHlo.TRef sig ⟨S100000x16, .i1⟩) (cmpf .ogt),
    StableHlo.TRef.nullary (.of main_call1_cst_1 : StableHlo.TRef sig ⟨S_, .f32⟩) (constant S_ .f32 0x00000000#32),
    StableHlo.TRef.unary (.of main_call1_cst_1 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S100000x16, .f32⟩) (broadcastInDim S100000x16 ![] bcast_S_S100000x16),
    StableHlo.TRef.ternary (.of main_call1_v3 : StableHlo.TRef sig ⟨S100000x16, .i1⟩) (.of main_call1_call0_v1 : StableHlo.TRef sig ⟨S100000x16, .f32⟩) (.of main_v46 : StableHlo.TRef sig ⟨S100000x16, .f32⟩) (.of main_call1_v4 : StableHlo.TRef sig ⟨S100000x16, .f32⟩) select,
    StableHlo.TRef.unary (.of main_call1_v4 : StableHlo.TRef sig ⟨S100000x16, .f32⟩) (.of main_call1_v5 : StableHlo.TRef sig ⟨S100000x16, .f32⟩) Host.expm1,
    StableHlo.TRef.nullary (.of main_call1_cst_2 : StableHlo.TRef sig ⟨S_, .f32⟩) (constant S_ .f32 0x3F800000#32),
    StableHlo.TRef.unary (.of main_call1_cst_2 : StableHlo.TRef sig ⟨S_, .f32⟩) (.of main_call1_v6 : StableHlo.TRef sig ⟨S100000x16, .f32⟩) (broadcastInDim S100000x16 ![] bcast_S_S100000x16),
    StableHlo.TRef.binary (.of main_call1_v6 : StableHlo.TRef sig ⟨S100000x16, .f32⟩) (.of main_call1_v5 : StableHlo.TRef sig ⟨S100000x16, .f32⟩) (.of main_call1_v7 : StableHlo.TRef sig ⟨S100000x16, .f32⟩) mulf,
    StableHlo.TRef.ternary (.of main_call1_v1 : StableHlo.TRef sig ⟨S100000x16, .i1⟩) (.of main_v46 : StableHlo.TRef sig ⟨S100000x16, .f32⟩) (.of main_call1_v7 : StableHlo.TRef sig ⟨S100000x16, .f32⟩) (.of main_v47 : StableHlo.TRef sig ⟨S100000x16, .f32⟩) select,
    StableHlo.binary main_v47 main_arg3 main_v48 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

theorem opsC_eq : (opsC : List (HloOp τ sig (Elt F))) = opsC0 ++ (opsC1 ++ (opsC2 ++ (opsC3 ++ (opsC4)))) := rfl

/-- The second layer's node indices, appended rows and in-degree with its mask and inverse square root: `%49` … `%cst_12`. -/
abbrev opsD0 : List (HloOp τ sig (Elt F)) :=
  [ StableHlo.nullary main_v49 (iotaInDim S100000 32 0),
    StableHlo.binary main_v1 main_v49 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.binary main_v3 main_v49 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst_9 (constant S_ .f32 0x3F800000#32),
    StableHlo.unary main_cst_9 main_v52 (broadcastInDim S3300000 ![] bcast_S_S3300000 : (⟨S_, .f32⟩ : BufTy).Contents (Elt F) → (⟨S3300000, .f32⟩ : BufTy).Contents (Elt F)),
    StableHlo.nullary main_cst_10 (constant S_ .f32 0x00000000#32),
    StableHlo.unary main_cst_10 main_v53 (broadcastInDim S100000 ![] bcast_S_S100000 : (⟨S_, .f32⟩ : BufTy).Contents (Elt F) → (⟨S100000, .f32⟩ : BufTy).Contents (Elt F)),
    StableHlo.unary main_v51 main_v54 (broadcastInDim S3300000x1 ![0] bcast_S3300000_S3300000x1_0 : (⟨S3300000, .i32⟩ : BufTy).Contents (Elt F) → (⟨S3300000x1, .i32⟩ : BufTy).Contents (Elt F)),
    StableHlo.ternary main_v53 main_v54 main_v52 main_v55 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_11 (constant S_ .f32 0x00000000#32),
    StableHlo.unary main_cst_11 main_v56 (broadcastInDim S100000 ![] bcast_S_S100000 : (⟨S_, .f32⟩ : BufTy).Contents (Elt F) → (⟨S100000, .f32⟩ : BufTy).Contents (Elt F)),
    StableHlo.binary main_v55 main_v56 main_v57 (cmpf .ogt : (⟨S100000, .f32⟩ : BufTy).Contents (Elt F) → (⟨S100000, .f32⟩ : BufTy).Contents (Elt F) → (⟨S100000, .i1⟩ : BufTy).Contents (Elt F)),
    StableHlo.unary main_v55 main_v58 (Host.rsqrt : (⟨S100000, .f32⟩ : BufTy).Contents (Elt F) → (⟨S100000, .f32⟩ : BufTy).Contents (Elt F)),
    StableHlo.nullary main_cst_12 (constant S_ .f32 0x00000000#32) ]

theorem opsD0_sub : (opsD0 : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub ..⟩

theorem opsD0_fresh : (opsD0 : List (HloOp τ sig (Elt F))).Forall fun op => op.fresh = ∅ := by
  simp only [List.Forall]; repeat' constructor

/-- The second masked inverse square root: the select helper's three operations, producing `%59`. -/
abbrev opsD1 : List (HloOp τ sig (Elt F)) :=
  [ StableHlo.TRef.unary (.of main_cst_12 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S100000, .f32⟩) (broadcastInDim S100000 ![] bcast_S_S100000),
    StableHlo.TRef.ternary (.of main_v57 : StableHlo.TRef sig ⟨S100000, .i1⟩) (.of main_v58 : StableHlo.TRef sig ⟨S100000, .f32⟩) (.of main_call2_v1 : StableHlo.TRef sig ⟨S100000, .f32⟩) (.of main_v59 : StableHlo.TRef sig ⟨S100000, .f32⟩) select ]

theorem opsD1_sub : (opsD1 : List (HloOp τ sig (Elt F))).Forall fun op => op.bufs ⊆ tcRefs τ sig :=
  ⟨unary_bufs_sub .., unary_bufs_sub .., ternary_bufs_sub ..⟩

theorem opsD1_fresh : (opsD1 : List (HloOp τ sig (Elt F))).Forall fun op => op.fresh = ∅ := by
  simp only [List.Forall]; repeat' constructor

/-- The second layer's wrapped index rows, gathered degree factors and edge weight `%74`. -/
abbrev opsD2 : List (HloOp τ sig (Elt F)) :=
  [ StableHlo.nullary main_c_13 (constantI S_ 32 0#32),
    StableHlo.unary main_c_13 main_v60 (broadcastInDim S3300000 ![] bcast_S_S3300000 : (⟨S_, .i32⟩ : BufTy).Contents (Elt F) → (⟨S3300000, .i32⟩ : BufTy).Contents (Elt F)),
    StableHlo.binary main_v50 main_v60 main_v61 (cmpi .slt : (⟨S3300000, .i32⟩ : BufTy).Contents (Elt F) → (⟨S3300000, .i32⟩ : BufTy).Contents (Elt F) → (⟨S3300000, .i1⟩ : BufTy).Contents (Elt F)),
    StableHlo.nullary main_c_14 (constantI S_ 32 100000#32),
    StableHlo.unary main_c_14 main_v62 (broadcastInDim S3300000 ![] bcast_S_S3300000 : (⟨S_, .i32⟩ : BufTy).Contents (Elt F) → (⟨S3300000, .i32⟩ : BufTy).Contents (Elt F)),
    StableHlo.binary main_v50 main_v62 main_v63 (addi : (⟨S3300000, .i32⟩ : BufTy).Contents (Elt F) → (⟨S3300000, .i32⟩ : BufTy).Contents (Elt F) → (⟨S3300000, .i32⟩ : BufTy).Contents (Elt F)),
    StableHlo.ternary main_v61 main_v63 main_v50 main_v64 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v64 main_v65 (broadcastInDim S3300000x1 ![0] bcast_S3300000_S3300000x1_0 : (⟨S3300000, .i32⟩ : BufTy).Contents (Elt F) → (⟨S3300000x1, .i32⟩ : BufTy).Contents (Elt F)),
    StableHlo.binary main_v59 main_v65 main_v66 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_15 (constantI S_ 32 0#32),
    StableHlo.unary main_c_15 main_v67 (broadcastInDim S3300000 ![] bcast_S_S3300000 : (⟨S_, .i32⟩ : BufTy).Contents (Elt F) → (⟨S3300000, .i32⟩ : BufTy).Contents (Elt F)),
    StableHlo.binary main_v51 main_v67 main_v68 (cmpi .slt : (⟨S3300000, .i32⟩ : BufTy).Contents (Elt F) → (⟨S3300000, .i32⟩ : BufTy).Contents (Elt F) → (⟨S3300000, .i1⟩ : BufTy).Contents (Elt F)),
    StableHlo.nullary main_c_16 (constantI S_ 32 100000#32),
    StableHlo.unary main_c_16 main_v69 (broadcastInDim S3300000 ![] bcast_S_S3300000 : (⟨S_, .i32⟩ : BufTy).Contents (Elt F) → (⟨S3300000, .i32⟩ : BufTy).Contents (Elt F)),
    StableHlo.binary main_v51 main_v69 main_v70 (addi : (⟨S3300000, .i32⟩ : BufTy).Contents (Elt F) → (⟨S3300000, .i32⟩ : BufTy).Contents (Elt F) → (⟨S3300000, .i32⟩ : BufTy).Contents (Elt F)),
    StableHlo.ternary main_v68 main_v70 main_v51 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v71 main_v72 (broadcastInDim S3300000x1 ![0] bcast_S3300000_S3300000x1_0 : (⟨S3300000, .i32⟩ : BufTy).Contents (Elt F) → (⟨S3300000x1, .i32⟩ : BufTy).Contents (Elt F)),
    StableHlo.binary main_v59 main_v72 main_v73 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v66 main_v73 main_v74 (mulf : (⟨S3300000, .f32⟩ : BufTy).Contents (Elt F) → (⟨S3300000, .f32⟩ : BufTy).Contents (Elt F) → (⟨S3300000, .f32⟩ : BufTy).Contents (Elt F)) ]

theorem opsD2_sub : (opsD2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem opsD2_fresh : (opsD2 : List (HloOp τ sig (Elt F))).Forall fun op => op.fresh = ∅ := by
  simp only [List.Forall]; repeat' constructor

/-- From `%49` through the second edge weights `%74`: the stretches above in order. -/
abbrev opsD : List (HloOp τ sig (Elt F)) :=
  [ StableHlo.nullary main_v49 (iotaInDim S100000 32 0),
    StableHlo.binary main_v1 main_v49 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.binary main_v3 main_v49 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst_9 (constant S_ .f32 0x3F800000#32),
    StableHlo.unary main_cst_9 main_v52 (broadcastInDim S3300000 ![] bcast_S_S3300000 : (⟨S_, .f32⟩ : BufTy).Contents (Elt F) → (⟨S3300000, .f32⟩ : BufTy).Contents (Elt F)),
    StableHlo.nullary main_cst_10 (constant S_ .f32 0x00000000#32),
    StableHlo.unary main_cst_10 main_v53 (broadcastInDim S100000 ![] bcast_S_S100000 : (⟨S_, .f32⟩ : BufTy).Contents (Elt F) → (⟨S100000, .f32⟩ : BufTy).Contents (Elt F)),
    StableHlo.unary main_v51 main_v54 (broadcastInDim S3300000x1 ![0] bcast_S3300000_S3300000x1_0 : (⟨S3300000, .i32⟩ : BufTy).Contents (Elt F) → (⟨S3300000x1, .i32⟩ : BufTy).Contents (Elt F)),
    StableHlo.ternary main_v53 main_v54 main_v52 main_v55 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_11 (constant S_ .f32 0x00000000#32),
    StableHlo.unary main_cst_11 main_v56 (broadcastInDim S100000 ![] bcast_S_S100000 : (⟨S_, .f32⟩ : BufTy).Contents (Elt F) → (⟨S100000, .f32⟩ : BufTy).Contents (Elt F)),
    StableHlo.binary main_v55 main_v56 main_v57 (cmpf .ogt : (⟨S100000, .f32⟩ : BufTy).Contents (Elt F) → (⟨S100000, .f32⟩ : BufTy).Contents (Elt F) → (⟨S100000, .i1⟩ : BufTy).Contents (Elt F)),
    StableHlo.unary main_v55 main_v58 (Host.rsqrt : (⟨S100000, .f32⟩ : BufTy).Contents (Elt F) → (⟨S100000, .f32⟩ : BufTy).Contents (Elt F)),
    StableHlo.nullary main_cst_12 (constant S_ .f32 0x00000000#32),
    StableHlo.TRef.unary (.of main_cst_12 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S100000, .f32⟩) (broadcastInDim S100000 ![] bcast_S_S100000),
    StableHlo.TRef.ternary (.of main_v57 : StableHlo.TRef sig ⟨S100000, .i1⟩) (.of main_v58 : StableHlo.TRef sig ⟨S100000, .f32⟩) (.of main_call2_v1 : StableHlo.TRef sig ⟨S100000, .f32⟩) (.of main_v59 : StableHlo.TRef sig ⟨S100000, .f32⟩) select,
    StableHlo.nullary main_c_13 (constantI S_ 32 0#32),
    StableHlo.unary main_c_13 main_v60 (broadcastInDim S3300000 ![] bcast_S_S3300000 : (⟨S_, .i32⟩ : BufTy).Contents (Elt F) → (⟨S3300000, .i32⟩ : BufTy).Contents (Elt F)),
    StableHlo.binary main_v50 main_v60 main_v61 (cmpi .slt : (⟨S3300000, .i32⟩ : BufTy).Contents (Elt F) → (⟨S3300000, .i32⟩ : BufTy).Contents (Elt F) → (⟨S3300000, .i1⟩ : BufTy).Contents (Elt F)),
    StableHlo.nullary main_c_14 (constantI S_ 32 100000#32),
    StableHlo.unary main_c_14 main_v62 (broadcastInDim S3300000 ![] bcast_S_S3300000 : (⟨S_, .i32⟩ : BufTy).Contents (Elt F) → (⟨S3300000, .i32⟩ : BufTy).Contents (Elt F)),
    StableHlo.binary main_v50 main_v62 main_v63 (addi : (⟨S3300000, .i32⟩ : BufTy).Contents (Elt F) → (⟨S3300000, .i32⟩ : BufTy).Contents (Elt F) → (⟨S3300000, .i32⟩ : BufTy).Contents (Elt F)),
    StableHlo.ternary main_v61 main_v63 main_v50 main_v64 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v64 main_v65 (broadcastInDim S3300000x1 ![0] bcast_S3300000_S3300000x1_0 : (⟨S3300000, .i32⟩ : BufTy).Contents (Elt F) → (⟨S3300000x1, .i32⟩ : BufTy).Contents (Elt F)),
    StableHlo.binary main_v59 main_v65 main_v66 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_15 (constantI S_ 32 0#32),
    StableHlo.unary main_c_15 main_v67 (broadcastInDim S3300000 ![] bcast_S_S3300000 : (⟨S_, .i32⟩ : BufTy).Contents (Elt F) → (⟨S3300000, .i32⟩ : BufTy).Contents (Elt F)),
    StableHlo.binary main_v51 main_v67 main_v68 (cmpi .slt : (⟨S3300000, .i32⟩ : BufTy).Contents (Elt F) → (⟨S3300000, .i32⟩ : BufTy).Contents (Elt F) → (⟨S3300000, .i1⟩ : BufTy).Contents (Elt F)),
    StableHlo.nullary main_c_16 (constantI S_ 32 100000#32),
    StableHlo.unary main_c_16 main_v69 (broadcastInDim S3300000 ![] bcast_S_S3300000 : (⟨S_, .i32⟩ : BufTy).Contents (Elt F) → (⟨S3300000, .i32⟩ : BufTy).Contents (Elt F)),
    StableHlo.binary main_v51 main_v69 main_v70 (addi : (⟨S3300000, .i32⟩ : BufTy).Contents (Elt F) → (⟨S3300000, .i32⟩ : BufTy).Contents (Elt F) → (⟨S3300000, .i32⟩ : BufTy).Contents (Elt F)),
    StableHlo.ternary main_v68 main_v70 main_v51 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v71 main_v72 (broadcastInDim S3300000x1 ![0] bcast_S3300000_S3300000x1_0 : (⟨S3300000, .i32⟩ : BufTy).Contents (Elt F) → (⟨S3300000x1, .i32⟩ : BufTy).Contents (Elt F)),
    StableHlo.binary main_v59 main_v72 main_v73 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v66 main_v73 main_v74 (mulf : (⟨S3300000, .f32⟩ : BufTy).Contents (Elt F) → (⟨S3300000, .f32⟩ : BufTy).Contents (Elt F) → (⟨S3300000, .f32⟩ : BufTy).Contents (Elt F)) ]

theorem opsD_eq : (opsD : List (HloOp τ sig (Elt F))) = opsD0 ++ (opsD1 ++ (opsD2)) := rfl

/-- The second layer's aggregation and bias: `%c_17` … `%90`. -/
abbrev opsE : List (HloOp τ sig (Elt F)) :=
  [ StableHlo.nullary main_c_17 (constantI S_ 32 0#32),
    StableHlo.unary main_c_17 main_v75 (broadcastInDim S3300000 ![] bcast_S_S3300000 : (⟨S_, .i32⟩ : BufTy).Contents (Elt F) → (⟨S3300000, .i32⟩ : BufTy).Contents (Elt F)),
    StableHlo.binary main_v50 main_v75 main_v76 (cmpi .slt : (⟨S3300000, .i32⟩ : BufTy).Contents (Elt F) → (⟨S3300000, .i32⟩ : BufTy).Contents (Elt F) → (⟨S3300000, .i1⟩ : BufTy).Contents (Elt F)),
    StableHlo.nullary main_c_18 (constantI S_ 32 100000#32),
    StableHlo.unary main_c_18 main_v77 (broadcastInDim S3300000 ![] bcast_S_S3300000 : (⟨S_, .i32⟩ : BufTy).Contents (Elt F) → (⟨S3300000, .i32⟩ : BufTy).Contents (Elt F)),
    StableHlo.binary main_v50 main_v77 main_v78 (addi : (⟨S3300000, .i32⟩ : BufTy).Contents (Elt F) → (⟨S3300000, .i32⟩ : BufTy).Contents (Elt F) → (⟨S3300000, .i32⟩ : BufTy).Contents (Elt F)),
    StableHlo.ternary main_v76 main_v78 main_v50 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v79 main_v80 (broadcastInDim S3300000x1 ![0] bcast_S3300000_S3300000x1_0 : (⟨S3300000, .i32⟩ : BufTy).Contents (Elt F) → (⟨S3300000x1, .i32⟩ : BufTy).Contents (Elt F)),
    StableHlo.binary main_v48 main_v80 main_v81 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    StableHlo.unary main_v74 main_v82 (broadcastInDim S3300000x1 ![0] bcast_S3300000_S3300000x1_0 : (⟨S3300000, .f32⟩ : BufTy).Contents (Elt F) → (⟨S3300000x1, .f32⟩ : BufTy).Contents (Elt F)),
    StableHlo.unary main_v82 main_v83 (broadcastInDim S3300000x40 ![0, 1] bcast_S3300000x1_S3300000x40_0_1 : (⟨S3300000x1, .f32⟩ : BufTy).Contents (Elt F) → (⟨S3300000x40, .f32⟩ : BufTy).Contents (Elt F)),
    StableHlo.binary main_v81 main_v83 main_v84 (mulf : (⟨S3300000x40, .f32⟩ : BufTy).Contents (Elt F) → (⟨S3300000x40, .f32⟩ : BufTy).Contents (Elt F) → (⟨S3300000x40, .f32⟩ : BufTy).Contents (Elt F)),
    StableHlo.nullary main_cst_19 (constant S_ .f32 0x00000000#32),
    StableHlo.unary main_cst_19 main_v85 (broadcastInDim S100000x40 ![] bcast_S_S100000x40 : (⟨S_, .f32⟩ : BufTy).Contents (Elt F) → (⟨S100000x40, .f32⟩ : BufTy).Contents (Elt F)),
    StableHlo.unary main_v51 main_v86 (broadcastInDim S3300000x1 ![0] bcast_S3300000_S3300000x1_0 : (⟨S3300000, .i32⟩ : BufTy).Contents (Elt F) → (⟨S3300000x1, .i32⟩ : BufTy).Contents (Elt F)),
    StableHlo.ternary main_v85 main_v86 main_v84 main_v87 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    StableHlo.unary main_arg4 main_v88 (broadcastInDim S1x40 ![1] bcast_S40_S1x40_1 : (⟨S40, .f32⟩ : BufTy).Contents (Elt F) → (⟨S1x40, .f32⟩ : BufTy).Contents (Elt F)),
    StableHlo.unary main_v88 main_v89 (broadcastInDim S100000x40 ![0, 1] bcast_S1x40_S100000x40_0_1 : (⟨S1x40, .f32⟩ : BufTy).Contents (Elt F) → (⟨S100000x40, .f32⟩ : BufTy).Contents (Elt F)),
    StableHlo.binary main_v87 main_v89 main_v90 (addf : (⟨S100000x40, .f32⟩ : BufTy).Contents (Elt F) → (⟨S100000x40, .f32⟩ : BufTy).Contents (Elt F) → (⟨S100000x40, .f32⟩ : BufTy).Contents (Elt F)) ]

theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

theorem opsE_fresh : (opsE : List (HloOp τ sig (Elt F))).Forall fun op => op.fresh = ∅ := by
  simp only [List.Forall]; repeat' constructor

/-- The row-wise log-softmax of `%90`: row maximum, shifted values, their exponentials' row sum, its logarithm, and the difference `%91`. -/
abbrev opsF : List (HloOp τ sig (Elt F)) :=
  [ StableHlo.TRef.nullary (.of main_call3_cst : StableHlo.TRef sig ⟨S_, .f32⟩) (constant S_ .f32 0xFF800000#32),
    StableHlo.TRef.binary (.of main_v90 : StableHlo.TRef sig ⟨S100000x40, .f32⟩) (.of main_call3_cst : StableHlo.TRef sig ⟨S_, .f32⟩) (.of main_call3_v0 : StableHlo.TRef sig ⟨S100000, .f32⟩) (fun x v => Host.reduce FloatOps.maximumf x v reducesTo_S100000x40_S100000_d1 h_S_),
    StableHlo.TRef.nullary (.of main_call3_cst_0 : StableHlo.TRef sig ⟨S_, .f32⟩) (constant S_ .f32 0xFF800000#32),
    StableHlo.TRef.unary (.of main_call3_cst_0 : StableHlo.TRef sig ⟨S_, .f32⟩) (.of main_call3_v1 : StableHlo.TRef sig ⟨S100000, .f32⟩) (broadcastInDim S100000 ![] bcast_S_S100000),
    StableHlo.TRef.binary (.of main_call3_v1 : StableHlo.TRef sig ⟨S100000, .f32⟩) (.of main_call3_v0 : StableHlo.TRef sig ⟨S100000, .f32⟩) (.of main_call3_v2 : StableHlo.TRef sig ⟨S100000, .f32⟩) maximumf,
    StableHlo.TRef.unary (.of main_call3_v2 : StableHlo.TRef sig ⟨S100000, .f32⟩) (.of main_call3_v3 : StableHlo.TRef sig ⟨S100000x1, .f32⟩) (broadcastInDim S100000x1 ![0] bcast_S100000_S100000x1_0),
    StableHlo.TRef.unary (.of main_call3_v3 : StableHlo.TRef sig ⟨S100000x1, .f32⟩) (.of main_call3_v4 : StableHlo.TRef sig ⟨S100000x40, .f32⟩) (broadcastInDim S100000x40 ![0, 1] bcast_S100000x1_S100000x40_0_1),
    StableHlo.TRef.binary (.of main_v90 : StableHlo.TRef sig ⟨S100000x40, .f32⟩) (.of main_call3_v4 : StableHlo.TRef sig ⟨S100000x40, .f32⟩) (.of main_call3_v5 : StableHlo.TRef sig ⟨S100000x40, .f32⟩) subf,
    StableHlo.TRef.unary (.of main_call3_v5 : StableHlo.TRef sig ⟨S100000x40, .f32⟩) (.of main_call3_v6 : StableHlo.TRef sig ⟨S100000x40, .f32⟩) Host.exp,
    StableHlo.TRef.nullary (.of main_call3_cst_1 : StableHlo.TRef sig ⟨S_, .f32⟩) (constant S_ .f32 0x00000000#32),
    StableHlo.TRef.binary (.of main_call3_v6 : StableHlo.TRef sig ⟨S100000x40, .f32⟩) (.of main_call3_cst_1 : StableHlo.TRef sig ⟨S_, .f32⟩) (.of main_call3_v7 : StableHlo.TRef sig ⟨S100000, .f32⟩) (fun x v => Host.reduceAdd x v reducesTo_S100000x40_S100000_d1 h_S_),
    StableHlo.TRef.unary (.of main_call3_v7 : StableHlo.TRef sig ⟨S100000, .f32⟩) (.of main_call3_v8 : StableHlo.TRef sig ⟨S100000x1, .f32⟩) (broadcastInDim S100000x1 ![0] bcast_S100000_S100000x1_0),
    StableHlo.TRef.unary (.of main_call3_v8 : StableHlo.TRef sig ⟨S100000x1, .f32⟩) (.of main_call3_v9 : StableHlo.TRef sig ⟨S100000x1, .f32⟩) Host.log,
    StableHlo.TRef.unary (.of main_call3_v9 : StableHlo.TRef sig ⟨S100000x1, .f32⟩) (.of main_call3_v10 : StableHlo.TRef sig ⟨S100000x40, .f32⟩) (broadcastInDim S100000x40 ![0, 1] bcast_S100000x1_S100000x40_0_1),
    StableHlo.TRef.binary (.of main_call3_v5 : StableHlo.TRef sig ⟨S100000x40, .f32⟩) (.of main_call3_v10 : StableHlo.TRef sig ⟨S100000x40, .f32⟩) (.of main_v91 : StableHlo.TRef sig ⟨S100000x40, .f32⟩) subf ]

theorem opsF_sub : (opsF : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem opsF_fresh : (opsF : List (HloOp τ sig (Elt F))).Forall fun op => op.fresh = ∅ := by
  simp only [List.Forall]; repeat' constructor

theorem opsA_sub : (opsA : List (HloOp τ sig (Elt F))).Forall fun op => op.bufs ⊆ tcRefs τ sig :=
  List.forall_iff_forall_mem.mpr fun op h => by
    rw [opsA_eq] at h
    simp only [List.mem_append] at h
    rcases h with h | h | h
    exacts [List.forall_iff_forall_mem.mp opsA0_sub op h, List.forall_iff_forall_mem.mp opsA1_sub op h, List.forall_iff_forall_mem.mp opsA2_sub op h]

theorem opsA_fresh : (opsA : List (HloOp τ sig (Elt F))).Forall fun op => op.fresh = ∅ :=
  List.forall_iff_forall_mem.mpr fun op h => by
    rw [opsA_eq] at h
    simp only [List.mem_append] at h
    rcases h with h | h | h
    exacts [List.forall_iff_forall_mem.mp opsA0_fresh op h, List.forall_iff_forall_mem.mp opsA1_fresh op h, List.forall_iff_forall_mem.mp opsA2_fresh op h]

theorem opsC_sub : (opsC : List (HloOp τ sig (Elt F))).Forall fun op => op.bufs ⊆ tcRefs τ sig :=
  List.forall_iff_forall_mem.mpr fun op h => by
    rw [opsC_eq] at h
    simp only [List.mem_append] at h
    rcases h with h | h | h | h | h
    exacts [List.forall_iff_forall_mem.mp opsC0_sub op h, List.forall_iff_forall_mem.mp opsC1_sub op h, List.forall_iff_forall_mem.mp opsC2_sub op h, List.forall_iff_forall_mem.mp opsC3_sub op h, List.forall_iff_forall_mem.mp opsC4_sub op h]

theorem opsC_fresh : (opsC : List (HloOp τ sig (Elt F))).Forall fun op => op.fresh = ∅ :=
  List.forall_iff_forall_mem.mpr fun op h => by
    rw [opsC_eq] at h
    simp only [List.mem_append] at h
    rcases h with h | h | h | h | h
    exacts [List.forall_iff_forall_mem.mp opsC0_fresh op h, List.forall_iff_forall_mem.mp opsC1_fresh op h, List.forall_iff_forall_mem.mp opsC2_fresh op h, List.forall_iff_forall_mem.mp opsC3_fresh op h, List.forall_iff_forall_mem.mp opsC4_fresh op h]

theorem opsD_sub : (opsD : List (HloOp τ sig (Elt F))).Forall fun op => op.bufs ⊆ tcRefs τ sig :=
  List.forall_iff_forall_mem.mpr fun op h => by
    rw [opsD_eq] at h
    simp only [List.mem_append] at h
    rcases h with h | h | h
    exacts [List.forall_iff_forall_mem.mp opsD0_sub op h, List.forall_iff_forall_mem.mp opsD1_sub op h, List.forall_iff_forall_mem.mp opsD2_sub op h]

theorem opsD_fresh : (opsD : List (HloOp τ sig (Elt F))).Forall fun op => op.fresh = ∅ :=
  List.forall_iff_forall_mem.mpr fun op h => by
    rw [opsD_eq] at h
    simp only [List.mem_append] at h
    rcases h with h | h | h
    exacts [List.forall_iff_forall_mem.mp opsD0_fresh op h, List.forall_iff_forall_mem.mp opsD1_fresh op h, List.forall_iff_forall_mem.mp opsD2_fresh op h]

/-! ## The whole line -/

/-- All 146 operations in program order: the six stretches one after the other. -/
abbrev ops : List (HloOp τ sig (Elt F)) := opsA ++ (opsB ++ (opsC ++ (opsD ++ (opsE ++ (opsF)))))

theorem ops_eq : (ops : List (HloOp τ sig (Elt F))) = opsA ++ (opsB ++ (opsC ++ (opsD ++ (opsE ++ (opsF))))) := rfl

theorem ops_sub : (ops : List (HloOp τ sig (Elt F))).Forall fun op => op.bufs ⊆ tcRefs τ sig :=
  List.forall_iff_forall_mem.mpr fun op h => by
    rw [ops_eq] at h
    simp only [List.mem_append] at h
    rcases h with h | h | h | h | h | h
    exacts [List.forall_iff_forall_mem.mp opsA_sub op h, List.forall_iff_forall_mem.mp opsB_sub op h, List.forall_iff_forall_mem.mp opsC_sub op h, List.forall_iff_forall_mem.mp opsD_sub op h, List.forall_iff_forall_mem.mp opsE_sub op h, List.forall_iff_forall_mem.mp opsF_sub op h]

/-- No operation of the line leaves a buffer's contents undetermined. -/
theorem ops_fresh : ∀ op ∈ (ops : List (HloOp τ sig (Elt F))), op.fresh = ∅ := fun op h => by
  rw [ops_eq] at h
  simp only [List.mem_append] at h
  rcases h with h | h | h | h | h | h
  exacts [List.forall_iff_forall_mem.mp opsA_fresh op h, List.forall_iff_forall_mem.mp opsB_fresh op h, List.forall_iff_forall_mem.mp opsC_fresh op h, List.forall_iff_forall_mem.mp opsD_fresh op h, List.forall_iff_forall_mem.mp opsE_fresh op h, List.forall_iff_forall_mem.mp opsF_fresh op h]

/-! ## The program is this line

Each half of the program is the sequence of its stretches — a helper's body unfolds to the stretch listed for it —
and a sequence of stretches is the line of their concatenation. -/

theorem main_part0_chain (c : Dev nD) : main_part0 (F := F) c = (Pipeline.chainK
  [ StableHlo.seq opsA0, StableHlo.seq opsA1, StableHlo.seq opsA2, StableHlo.seq opsB,
    StableHlo.seq opsC0, StableHlo.seq opsC1, StableHlo.seq opsC2, StableHlo.seq opsC3 ]
  (StableHlo.seq opsC4) : Prog (TpuEff nD τ sig (Elt F) (Pipeline.Sig Λ₀ (Fin 0) fun p => (pcfgs (F := F) p).Adm) .tc) PUnit) := by
  chain_rfl

theorem main_part1_chain (c : Dev nD) : main_part1 (F := F) c = (Pipeline.chain
  [ StableHlo.seq opsD0, StableHlo.seq opsD1, StableHlo.seq opsD2, StableHlo.seq opsE,
    StableHlo.seq opsF ] : Prog (TpuEff nD τ sig (Elt F) (Pipeline.Sig Λ₀ (Fin 0) fun p => (pcfgs (F := F) p).Adm) .tc) PUnit) := by
  chain_rfl

/-- Lines run one after the other are the line of their concatenation. -/
theorem chain_seq {nD : Nat} {τ : Topo} {sig : RefSig} {Val : EltTy → Type} {Λ : Labels} :
    ∀ ls : List (List (HloOp τ sig Val)),
      Pipeline.chain (ls.map fun l => (seq l : Prog (TpuEff nD τ sig Val Λ .tc) PUnit)) = seq ls.flatten
  | [] => rfl
  | l :: ls => by
    rw [List.map_cons, Pipeline.chain_cons, List.flatten_cons, seq_append, chain_seq ls]

theorem flatten_pieces : [opsA0, opsA1, opsA2, opsB, opsC0, opsC1, opsC2, opsC3, opsC4, opsD0, opsD1, opsD2, opsE, opsF].flatten = (ops : List (HloOp τ sig (Elt F))) := rfl

theorem main_eq (c : Dev nD) : main (F := F) c = seq ops := by
  show (main_part0 (F := F) c >>= fun _ => main_part1 (F := F) c) = _
  rw [main_part1_chain, main_part0_chain, Pipeline.chainK_bind_chain]
  exact (chain_seq [opsA0, opsA1, opsA2, opsB, opsC0, opsC1, opsC2, opsC3, opsC4, opsD0, opsD1, opsD2, opsE, opsF]).trans (congrArg seq flatten_pieces)

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of the
    reference terminates, and every buffer ends at the fold of the operations' results over its contents at launch. -/
theorem run_main (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (b : DevRef τ sig) :=
  run_seq scopedRefs_eq scopedSems_eq defs main (fun _ => ops) main_eq (fun _ => ops_sub) m ρ (fun _ => ops_fresh)

/-- The fold over two lines in a row is the fold over the second of the fold over the first. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_append l₁ l₂]

/-- The fold over the whole line is the folds over the six stretches, composed in order. -/
theorem after_ops (V : Valuation τ sig (Elt F)) :
    after ops V = after opsF (after opsE (after opsD (after opsC (after opsB (after opsA V))))) := by
  rw [ops_eq, after_append, after_append, after_append, after_append, after_append]

end Cert.ReferenceIdeal.Hand

end
-- ==== Proof.RefValue.lean ====
/- The reference's run read back as the shared stages.

   The line of operations is cut into six stretches. After each one, the buffer that the next stretch reads holds
   a named stage of what the stretch before left: the two endpoint vectors with one self-loop per node, the
   symmetric normalization of every edge, a dense product, an aggregation plus a bias row, the exponential linear
   unit, the logarithm of the row-wise softmax. Composing the six equations, the result buffer holds the reference
   function of the six inputs, and no input is written. -/
import proofs.«167873_j25907242729900_2_alg».proof.Proof.RefRun
import proofs.«167873_j25907242729900_2_alg».proof.Proof.Stages

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.GcnStages (row0 row1 withLoops srcOf dstOf normOf agg16 agg40 biasRows16 biasRows40 eluRef logSoftmaxRef dot1 dot2 refOut)

variable {F : FTy → Type} [FloatOps F] (V : Valuation τ sig (Elt F))

/-- Moving a value to a typed reference's buffer type and back is the identity. -/
theorem ofBuf_toBuf {sig : RefSig} {T : BufTy} {Val : EltTy → Type} (x : TRef sig T) (v : T.Contents Val) :
    x.ofBuf (x.toBuf v) = v := by
  obtain ⟨r, h, _, _⟩ := x
  subst h
  rfl

/-! ## Through the edge weights: endpoints, first product, normalization — functions of the inputs alone -/

set_option maxHeartbeats 4000000 in
theorem A_v1 : after opsA V (main_v1 : DevRef τ sig) = row0 (V (main_arg5 : DevRef τ sig)) := by
  after_results_simp
  rfl

set_option maxHeartbeats 4000000 in
theorem A_v3 : after opsA V (main_v3 : DevRef τ sig) = row1 (V (main_arg5 : DevRef τ sig)) := by
  after_results_simp
  rfl

set_option maxHeartbeats 4000000 in
theorem A_v4 : after opsA V (main_v4 : DevRef τ sig) = dot1 (V (main_arg0 : DevRef τ sig)) (V (main_arg1 : DevRef τ sig)) := by
  after_results_simp
  rfl

set_option maxHeartbeats 4000000 in
theorem A_v6 : after opsA V (main_v6 : DevRef τ sig) = srcOf (V (main_arg5 : DevRef τ sig)) := by
  after_results_simp
  rfl

set_option maxHeartbeats 4000000 in
theorem A_v7 : after opsA V (main_v7 : DevRef τ sig) = dstOf (V (main_arg5 : DevRef τ sig)) := by
  after_results_simp
  rfl

set_option maxHeartbeats 8000000 in
theorem A_v30 : after opsA V (main_v30 : DevRef τ sig) = normOf (srcOf (V (main_arg5 : DevRef τ sig))) (dstOf (V (main_arg5 : DevRef τ sig))) := by
  after_results_simp
  rfl

theorem A_arg0 : after opsA V (main_arg0 : DevRef τ sig) = V (main_arg0 : DevRef τ sig) := by after_results_simp
theorem A_arg1 : after opsA V (main_arg1 : DevRef τ sig) = V (main_arg1 : DevRef τ sig) := by after_results_simp
theorem A_arg2 : after opsA V (main_arg2 : DevRef τ sig) = V (main_arg2 : DevRef τ sig) := by after_results_simp
theorem A_arg3 : after opsA V (main_arg3 : DevRef τ sig) = V (main_arg3 : DevRef τ sig) := by after_results_simp
theorem A_arg4 : after opsA V (main_arg4 : DevRef τ sig) = V (main_arg4 : DevRef τ sig) := by after_results_simp
theorem A_arg5 : after opsA V (main_arg5 : DevRef τ sig) = V (main_arg5 : DevRef τ sig) := by after_results_simp

/-! ## The first layer's aggregation and bias -/

set_option maxHeartbeats 4000000 in
theorem B_v46 : after opsB V (main_v46 : DevRef τ sig) = addf (agg16 (V (main_v4 : DevRef τ sig)) (V (main_v30 : DevRef τ sig)) (V (main_v6 : DevRef τ sig)) (V (main_v7 : DevRef τ sig))) (biasRows16 (V (main_arg2 : DevRef τ sig))) := by
  after_results_simp
  rfl

theorem B_v1 : after opsB V (main_v1 : DevRef τ sig) = V (main_v1 : DevRef τ sig) := by after_results_simp
theorem B_v3 : after opsB V (main_v3 : DevRef τ sig) = V (main_v3 : DevRef τ sig) := by after_results_simp
theorem B_arg0 : after opsB V (main_arg0 : DevRef τ sig) = V (main_arg0 : DevRef τ sig) := by after_results_simp
theorem B_arg1 : after opsB V (main_arg1 : DevRef τ sig) = V (main_arg1 : DevRef τ sig) := by after_results_simp
theorem B_arg2 : after opsB V (main_arg2 : DevRef τ sig) = V (main_arg2 : DevRef τ sig) := by after_results_simp
theorem B_arg3 : after opsB V (main_arg3 : DevRef τ sig) = V (main_arg3 : DevRef τ sig) := by after_results_simp
theorem B_arg4 : after opsB V (main_arg4 : DevRef τ sig) = V (main_arg4 : DevRef τ sig) := by after_results_simp
theorem B_arg5 : after opsB V (main_arg5 : DevRef τ sig) = V (main_arg5 : DevRef τ sig) := by after_results_simp

/-! ## The activation and the second product -/

set_option maxHeartbeats 4000000 in
theorem C_v48 : after opsC V (main_v48 : DevRef τ sig) = dot2 (eluRef (V (main_v46 : DevRef τ sig))) (V (main_arg3 : DevRef τ sig)) := by
  after_results_simp
  rfl

theorem C_v1 : after opsC V (main_v1 : DevRef τ sig) = V (main_v1 : DevRef τ sig) := by after_results_simp
theorem C_v3 : after opsC V (main_v3 : DevRef τ sig) = V (main_v3 : DevRef τ sig) := by after_results_simp
theorem C_arg0 : after opsC V (main_arg0 : DevRef τ sig) = V (main_arg0 : DevRef τ sig) := by after_results_simp
theorem C_arg1 : after opsC V (main_arg1 : DevRef τ sig) = V (main_arg1 : DevRef τ sig) := by after_results_simp
theorem C_arg2 : after opsC V (main_arg2 : DevRef τ sig) = V (main_arg2 : DevRef τ sig) := by after_results_simp
theorem C_arg3 : after opsC V (main_arg3 : DevRef τ sig) = V (main_arg3 : DevRef τ sig) := by after_results_simp
theorem C_arg4 : after opsC V (main_arg4 : DevRef τ sig) = V (main_arg4 : DevRef τ sig) := by after_results_simp
theorem C_arg5 : after opsC V (main_arg5 : DevRef τ sig) = V (main_arg5 : DevRef τ sig) := by after_results_simp

/-! ## The second layer's endpoints and normalization, recomputed from the two rows of the edge array -/

set_option maxHeartbeats 4000000 in
theorem D_v50 : after opsD V (main_v50 : DevRef τ sig) = withLoops (V (main_v1 : DevRef τ sig)) := by
  after_results_simp
  rfl

set_option maxHeartbeats 4000000 in
theorem D_v51 : after opsD V (main_v51 : DevRef τ sig) = withLoops (V (main_v3 : DevRef τ sig)) := by
  after_results_simp
  rfl

set_option maxHeartbeats 8000000 in
theorem D_v74 : after opsD V (main_v74 : DevRef τ sig) = normOf (withLoops (V (main_v1 : DevRef τ sig))) (withLoops (V (main_v3 : DevRef τ sig))) := by
  after_results_simp
  rfl

theorem D_v48 : after opsD V (main_v48 : DevRef τ sig) = V (main_v48 : DevRef τ sig) := by after_results_simp
theorem D_arg0 : after opsD V (main_arg0 : DevRef τ sig) = V (main_arg0 : DevRef τ sig) := by after_results_simp
theorem D_arg1 : after opsD V (main_arg1 : DevRef τ sig) = V (main_arg1 : DevRef τ sig) := by after_results_simp
theorem D_arg2 : after opsD V (main_arg2 : DevRef τ sig) = V (main_arg2 : DevRef τ sig) := by after_results_simp
theorem D_arg3 : after opsD V (main_arg3 : DevRef τ sig) = V (main_arg3 : DevRef τ sig) := by after_results_simp
theorem D_arg4 : after opsD V (main_arg4 : DevRef τ sig) = V (main_arg4 : DevRef τ sig) := by after_results_simp
theorem D_arg5 : after opsD V (main_arg5 : DevRef τ sig) = V (main_arg5 : DevRef τ sig) := by after_results_simp

/-! ## The second layer's aggregation and bias -/

set_option maxHeartbeats 4000000 in
theorem E_v90 : after opsE V (main_v90 : DevRef τ sig) = addf (agg40 (V (main_v48 : DevRef τ sig)) (V (main_v74 : DevRef τ sig)) (V (main_v50 : DevRef τ sig)) (V (main_v51 : DevRef τ sig))) (biasRows40 (V (main_arg4 : DevRef τ sig))) := by
  after_results_simp
  rfl

theorem E_arg0 : after opsE V (main_arg0 : DevRef τ sig) = V (main_arg0 : DevRef τ sig) := by after_results_simp
theorem E_arg1 : after opsE V (main_arg1 : DevRef τ sig) = V (main_arg1 : DevRef τ sig) := by after_results_simp
theorem E_arg2 : after opsE V (main_arg2 : DevRef τ sig) = V (main_arg2 : DevRef τ sig) := by after_results_simp
theorem E_arg3 : after opsE V (main_arg3 : DevRef τ sig) = V (main_arg3 : DevRef τ sig) := by after_results_simp
theorem E_arg4 : after opsE V (main_arg4 : DevRef τ sig) = V (main_arg4 : DevRef τ sig) := by after_results_simp
theorem E_arg5 : after opsE V (main_arg5 : DevRef τ sig) = V (main_arg5 : DevRef τ sig) := by after_results_simp

/-! ## The logarithm of the row-wise softmax -/

set_option maxHeartbeats 4000000 in
theorem F_v91 : after opsF V (main_v91 : DevRef τ sig) = logSoftmaxRef (V (main_v90 : DevRef τ sig)) := by
  after_results_simp
  simp only [ofBuf_toBuf]
  rfl

theorem F_arg0 : after opsF V (main_arg0 : DevRef τ sig) = V (main_arg0 : DevRef τ sig) := by after_results_simp
theorem F_arg1 : after opsF V (main_arg1 : DevRef τ sig) = V (main_arg1 : DevRef τ sig) := by after_results_simp
theorem F_arg2 : after opsF V (main_arg2 : DevRef τ sig) = V (main_arg2 : DevRef τ sig) := by after_results_simp
theorem F_arg3 : after opsF V (main_arg3 : DevRef τ sig) = V (main_arg3 : DevRef τ sig) := by after_results_simp
theorem F_arg4 : after opsF V (main_arg4 : DevRef τ sig) = V (main_arg4 : DevRef τ sig) := by after_results_simp
theorem F_arg5 : after opsF V (main_arg5 : DevRef τ sig) = V (main_arg5 : DevRef τ sig) := by after_results_simp

/-! ## The whole line

The six stretches are composed by rewriting: each stretch's result is a stage of the values the stretch before it
left, and a buffer a stretch does not write is carried through. -/

theorem withLoops_row0 (e : (⟨S2x3200000, .i32⟩ : BufTy).Contents (Elt F)) : withLoops (row0 e) = srcOf e := rfl
theorem withLoops_row1 (e : (⟨S2x3200000, .i32⟩ : BufTy).Contents (Elt F)) : withLoops (row1 e) = dstOf e := rfl

/-- The result buffer after the whole line holds the reference function of the six inputs. -/
theorem out_eq : after ops V (main_v91 : DevRef τ sig)
    = refOut (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [after_ops, F_v91, E_v90, D_v48, D_v74, D_v50, D_v51, D_arg4, C_v48, C_v1, C_v3, C_arg4, B_v46, B_v1, B_v3, B_arg3, B_arg4,
    A_v4, A_v30, A_v6, A_v7, A_v1, A_v3, A_arg2, A_arg3, A_arg4, withLoops_row0, withLoops_row1]
  rfl

/-- Input 0 is never written. -/
theorem arg0_eq : after ops V (main_arg0 : DevRef τ sig) = V (main_arg0 : DevRef τ sig) := by
  rw [after_ops, F_arg0, E_arg0, D_arg0, C_arg0, B_arg0, A_arg0]
/-- Input 1 is never written. -/
theorem arg1_eq : after ops V (main_arg1 : DevRef τ sig) = V (main_arg1 : DevRef τ sig) := by
  rw [after_ops, F_arg1, E_arg1, D_arg1, C_arg1, B_arg1, A_arg1]
/-- Input 2 is never written. -/
theorem arg2_eq : after ops V (main_arg2 : DevRef τ sig) = V (main_arg2 : DevRef τ sig) := by
  rw [after_ops, F_arg2, E_arg2, D_arg2, C_arg2, B_arg2, A_arg2]
/-- Input 3 is never written. -/
theorem arg3_eq : after ops V (main_arg3 : DevRef τ sig) = V (main_arg3 : DevRef τ sig) := by
  rw [after_ops, F_arg3, E_arg3, D_arg3, C_arg3, B_arg3, A_arg3]
/-- Input 4 is never written. -/
theorem arg4_eq : after ops V (main_arg4 : DevRef τ sig) = V (main_arg4 : DevRef τ sig) := by
  rw [after_ops, F_arg4, E_arg4, D_arg4, C_arg4, B_arg4, A_arg4]
/-- Input 5 is never written. -/
theorem arg5_eq : after ops V (main_arg5 : DevRef τ sig) = V (main_arg5 : DevRef τ sig) := by
  rw [after_ops, F_arg5, E_arg5, D_arg5, C_arg5, B_arg5, A_arg5]

/-- On every device, for any float values, from any memory with zero counters: every weakly fair execution of the
    reference terminates with the result buffer at the reference function of the inputs' contents at launch, and
    the inputs unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_main m ρ)

end Cert.ReferenceIdeal.Hand

end
-- ==== Proof.LibColumnBroadcast.lean ====
/-
  A per-row quantity put back beside every entry of its row, in the host's spelling: a vector of a entries kept as an
  a × 1 column (broadcast_in_dim along axis 0) reads its entry p at (p, 0); an a × 1 column copied along its unit
  axis into an a × b matrix (broadcast_in_dim along axes 0, 1) reads, at (p, d), the column's entry p.
-/
import Idealize.ShloMosaic.Lib.ValueLayout
import Idealize.ShloMosaic.Lib.Pipeline.Value

namespace ColumnBroadcast

open Idealize.ShloMosaic Idealize.ShloMosaic.ValueIdx

variable {α : Type}

/-- A vector kept as a column reads, at (p, u), the vector at p. -/
theorem column_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) (fun ax => ?_)
  match ax with
  | ⟨0, _⟩ =>
    show p.val = if a = 1 then 0 else p.val
    have := p.isLt
    split <;> omega

/-- A column copied along its unit axis reads, at (p, d), the column at (p, 0). -/
theorem columns_apply {a b : ℕ} (w : (⟨2, ![a, 1]⟩ : Shape).Idx → α)
    (h : (⟨2, ![a, 1]⟩ : Shape).BroadcastsInDim ⟨2, ![a, b]⟩ ![0, 1]) (p : Fin a) (d : Fin b) :
    broadcastInDim ⟨2, ![a, b]⟩ ![0, 1] h w (ix2 p d) = w (ix2 p (0 : Fin 1)) := by
  refine broadcastInDim_apply ![0, 1] h w (ix2 p d) (ix2 p (0 : Fin 1)) (fun ax => ?_)
  match ax with
  | ⟨0, _⟩ =>
    show p.val = if a = 1 then 0 else p.val
    have := p.isLt
    split <;> omega
  | ⟨1, _⟩ => rfl

end ColumnBroadcast
-- ==== Proof.RefBridge.lean ====
/-
  The reference's dense layers, as the host spells them, are the layer functions on the extended reals: the host's
  contraction is the exact matrix product; a bias vector laid out as a row and copied into every row is the bias row
  added to every row; the reference's exponential linear unit — z where z > 0 and 1 · (e^t − 1) elsewhere, t being z
  with its positive entries replaced by 0 — is y ↦ y for y > 0 and e^y − 1 otherwise, entry by entry; and its
  log-softmax — the row's greatest entry (taken once more against −∞) subtracted, then the logarithm of the row's sum of
  exponentials subtracted — is the row-wise log-softmax.
-/
import proofs.«167873_j25907242729900_2_alg».proof.Proof.Stages
import proofs.«167873_j25907242729900_2_alg».proof.Proof.Layers
import proofs.«167873_j25907242729900_2_alg».proof.Proof.LibExactProduct
import proofs.«167873_j25907242729900_2_alg».proof.Proof.LibRowReduce
import proofs.«167873_j25907242729900_2_alg».proof.Proof.LibColumnBroadcast
import Idealize.ShloMosaic.PureOps.Ideal.Laws
import Idealize.ShloMosaic.PureOps.IdealRules
import Idealize.ShloMosaic.Lib.ValueLayout
import Idealize.ShloMosaic.Lib.Pipeline.Value

noncomputable section

namespace Cert.GcnBridge

open Cert.ReferenceIdeal Cert.ReferenceIdeal.Facts₀ Idealize.ShloMosaic Idealize.ShloMosaic.ValueIdx
open Cert.GcnStages Cert.GcnLayers

/-- The f32 word of 1.0 is the real number 1. -/
theorem one_f32 : Ideal.ofBits .f32 0x3F800000#32 = 1 := IdealRules.sign_bit.ideal_onePat .f32

/-- Removing axis 1 of a 100000 × 40 matrix leaves a vector of 100000 entries. -/
theorem rows_reduce : S100000x40.Reduces [1] S100000 := by decide

/-! ## The products -/

theorem dot1_eq (x : FVec Ideal S100000x512 .f32) (w : FVec Ideal S512x16 .f32) :
    dot1 (F := Ideal) x w = ExactProduct.mm x w :=
  ExactProduct.hostDot_eq_mm _ rfl none x w

theorem dot2_eq (x : FVec Ideal S100000x16 .f32) (w : FVec Ideal S16x40 .f32) :
    dot2 (F := Ideal) x w = ExactProduct.mm x w :=
  ExactProduct.hostDot_eq_mm _ rfl none x w

/-! ## The bias rows -/

theorem bias16_eq (y : FVec Ideal S100000x16 .f32) (b : FVec Ideal S16 .f32) (hc : S16.ShapeCasts S1x16) :
    addf (F := Ideal) y (biasRows16 (F := Ideal) b) = rowBias y (shapeCast S1x16 b hc) := by
  funext i
  obtain ⟨r, c, rfl⟩ : ∃ (r : Fin 100000) (c : Fin 16), i = ix2 r c := ⟨i 0, i 1, eq_ix2 i⟩
  show y (ix2 r c) + biasRows16 (F := Ideal) b (ix2 r c) = y (ix2 r c) + shapeCast S1x16 b hc (ix2 (0 : Fin 1) c)
  exact congrArg (y (ix2 r c) + ·)
    ((ExactProduct.rowOfVector_apply b _ _ r c).trans (shapeCast_a_1a_apply b hc (0 : Fin 1) c).symm)

theorem bias40_eq (y : FVec Ideal S100000x40 .f32) (b : FVec Ideal S40 .f32) (hc : S40.ShapeCasts S1x40) :
    addf (F := Ideal) y (biasRows40 (F := Ideal) b) = rowBias y (shapeCast S1x40 b hc) := by
  funext i
  obtain ⟨r, c, rfl⟩ : ∃ (r : Fin 100000) (c : Fin 40), i = ix2 r c := ⟨i 0, i 1, eq_ix2 i⟩
  show y (ix2 r c) + biasRows40 (F := Ideal) b (ix2 r c) = y (ix2 r c) + shapeCast S1x40 b hc (ix2 (0 : Fin 1) c)
  exact congrArg (y (ix2 r c) + ·)
    ((ExactProduct.rowOfVector_apply b _ _ r c).trans (shapeCast_a_1a_apply b hc (0 : Fin 1) c).symm)

/-! ## The exponential linear unit -/

/-- On one extended real: the select on y > 0 between y and 1 · (e^t − 1), t = 0 where y > 0 and y elsewhere. -/
theorem elu1_ref (y : EReal) :
    Scalar.select (Ideal.cmp .ogt y 0) y (1 * (Ideal.exp (Scalar.select (Ideal.cmp .ogt y 0) 0 y) - 1)) = elu1 y := by
  unfold elu1 Scalar.select Ideal.cmp
  by_cases h : (0 : EReal) < y <;> simp [h]

theorem eluRef_eq (z : FVec Ideal S100000x16 .f32) : eluRef (F := Ideal) z = elu z := by
  funext i
  refine Eq.trans ?_ (elu1_ref (z i))
  simp only [eluRef, select, cmpf, mulf, Host.expm1, broadcastInDim, constant, id, Ideal.cmpf_def, Ideal.mulf_def,
    Ideal.hostUnary_expm1_def, Ideal.ofBits_def, Ideal.ofBits_zero_f32, one_f32]

/-! ## The log-softmax -/

/-- The reference's row maximum, taken once more against −∞, is the fold of max over the row from −∞. -/
theorem refMax_at (z : FVec Ideal S100000x40 .f32) (p : Fin 100000) :
    maximumf (F := Ideal) (broadcastInDim S100000 ![] bcast_S_S100000 (constant (F := Ideal) S_ .f32 0xFF800000#32))
        (Host.reduce (FloatOps.maximumf (F := Ideal) (φ := .f32)) z (constant (F := Ideal) S_ .f32 0xFF800000#32)
          reducesTo_S100000x40_S100000_d1 h_S_) (ix1 p)
      = rowMax z p := by
  rw [maximumf_apply, RowReduce.hostMax_at z (constant (F := Ideal) S_ .f32 0xFF800000#32) reducesTo_S100000x40_S100000_d1 rows_reduce h_S_ p]
  exact RowReduce.max_fold_self _ _ _

/-- The shifted scores at (p, d): the entry minus its row's greatest entry. -/
theorem shiftedRef_at (z : FVec Ideal S100000x40 .f32) (p : Fin 100000) (d : Fin 40) :
    shiftedRef (F := Ideal) z (ix2 p d) = z (ix2 p d) - rowMax z p := by
  unfold shiftedRef
  rw [subf_apply]
  refine congrArg (z (ix2 p d) - ·) ?_
  exact (ColumnBroadcast.columns_apply _ bcast_S100000x1_S100000x40_0_1 p d).trans
    ((ColumnBroadcast.column_apply _ bcast_S100000_S100000x1_0 p (0 : Fin 1)).trans (refMax_at z p))

/-- The host's logarithm and exponential act entry by entry. -/
theorem hostLog_at {s : Shape} (x : FVec Ideal s .f32) (i : s.Idx) : Host.log (F := Ideal) x i = Ideal.log (x i) := rfl
theorem hostExp_at {s : Shape} (x : FVec Ideal s .f32) (i : s.Idx) : Host.exp (F := Ideal) x i = Ideal.exp (x i) := rfl

theorem logSoftmaxRef_eq (z : FVec Ideal S100000x40 .f32) : logSoftmaxRef (F := Ideal) z = logSoftmax z := by
  funext i
  obtain ⟨p, d, rfl⟩ : ∃ (p : Fin 100000) (d : Fin 40), i = ix2 p d := ⟨i 0, i 1, eq_ix2 i⟩
  unfold logSoftmaxRef
  rw [subf_apply, shiftedRef_at, logSoftmax_apply]
  refine congrArg ((z (ix2 p d) - rowMax z p) - ·) ?_
  refine (ColumnBroadcast.columns_apply _ bcast_S100000x1_S100000x40_0_1 p d).trans ?_
  refine (hostLog_at _ _).trans (congrArg Ideal.log ?_)
  refine (ColumnBroadcast.column_apply _ bcast_S100000_S100000x1_0 p (0 : Fin 1)).trans ?_
  refine (RowReduce.hostSum_at (Host.exp (F := Ideal) (shiftedRef (F := Ideal) z)) (constant (F := Ideal) S_ .f32 0x00000000#32)
    reducesTo_S100000x40_S100000_d1 rows_reduce h_S_ p).trans ?_
  refine (congrArg (· + _) Ideal.ofBits_zero_f32).trans ((zero_add _).trans ?_)
  unfold rowExpSum
  refine Finset.sum_congr rfl fun k _ => ?_
  exact (hostExp_at _ _).trans (congrArg Ideal.exp (shiftedRef_at z p k))

/-! ## The whole reference -/

/-- The reference is the layer functions composed with the shared aggregation: the log-softmax of the second
    aggregation plus the second bias row, the aggregated matrix being elu(first aggregation + first bias row) · w2 and
    the first aggregated matrix x · w1. -/
theorem refOut_eq (x : FVec Ideal S100000x512 .f32) (w1 : FVec Ideal S512x16 .f32) (b1 : FVec Ideal S16 .f32)
    (w2 : FVec Ideal S16x40 .f32) (b2 : FVec Ideal S40 .f32) (e : IVec S2x3200000 32)
    (h16 : S16.ShapeCasts S1x16) (h40 : S40.ShapeCasts S1x40) :
    refOut (F := Ideal) x w1 b1 w2 b2 e
      = logSoftmax (rowBias
          (agg40 (F := Ideal)
            (ExactProduct.mm
              (elu (rowBias (agg16 (F := Ideal) (ExactProduct.mm x w1) (normOf (srcOf e) (dstOf e)) (srcOf e) (dstOf e))
                (shapeCast S1x16 b1 h16)))
              w2)
            (normOf (srcOf e) (dstOf e)) (srcOf e) (dstOf e))
          (shapeCast S1x40 b2 h40)) := by
  unfold refOut
  rw [dot1_eq, bias16_eq _ _ h16, eluRef_eq, dot2_eq, bias40_eq _ _ h40, logSoftmaxRef_eq]

end Cert.GcnBridge

end
-- ==== Proof.lean ====
/-
  A two-layer graph convolution with symmetric normalization, computed two ways. The kernel program runs its three
  dense stages on the matrix unit, block of rows by block of rows — x · w1; elu(aggregate + b1) · w2; the row-wise
  log-softmax of aggregate + b2 — between host stretches that gather, scale by the edge normalization and scatter-add;
  the reference is one host program: log_softmax(A (elu(A (x w1) + b1) w2) + b2) with the same aggregation A.
  On the extended reals the two agree entry by entry: a product accumulated block by block into zero is the exact
  product; a bias laid out as a row is the bias vector copied into every row; e^{min(y,0)} − 1 and 1 · (e^t − 1) with
  t = y where y ≤ 0 are both e^y − 1 there; the log-softmax formulas coincide; and the aggregation is the same host
  function of the same operands on both sides, never opened. No law used needs the inputs to be finite.
-/
import proofs.«167873_j25907242729900_2_alg».proof.Defs
import proofs.«167873_j25907242729900_2_alg».proof.Proof.Gen.Kernel
import proofs.«167873_j25907242729900_2_alg».proof.Proof.Gen.Kernel.Frame
import proofs.«167873_j25907242729900_2_alg».proof.Proof.Gen.KernelIdeal
import proofs.«167873_j25907242729900_2_alg».proof.Proof.Gen.KernelIdeal.Frame
import proofs.«167873_j25907242729900_2_alg».proof.Proof.Gen.ReferenceIdeal
import proofs.«167873_j25907242729900_2_alg».proof.Proof.Gen.Pre_finite_inputs
import proofs.«167873_j25907242729900_2_alg».proof.Proof.KernelRun
import proofs.«167873_j25907242729900_2_alg».proof.Proof.KernelValue
import proofs.«167873_j25907242729900_2_alg».proof.Proof.RefValue
import proofs.«167873_j25907242729900_2_alg».proof.Proof.RefBridge
import Idealize.ShloMosaic.Adequacy
import Idealize.ShloMosaic.Init

noncomputable section

namespace Cert.Proof

open Idealize.ShloMosaic Idealize.SL.Sem

/-- The kernel program at the word level runs, its arguments unchanged: the generated frame. -/
theorem frame_kernel : Cert.frame_Kernel := fun m ρ _ => Cert.Kernel.Gen.frame m ρ

/-- The idealized kernel program runs, its arguments unchanged: the generated frame. -/
theorem frame_kernelIdeal : Cert.frame_KernelIdeal := fun m ρ _ => Cert.KernelIdeal.Gen.frame m ρ

/-- The reference runs, its arguments unchanged: its run with the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- Both programs end with the reference's function of the argument arrays in their result buffers. -/
theorem algebraic : Cert.algebraic_KernelIdeal_ReferenceIdeal := by
  intro m ρ m' ρ' _ hagree
  refine ⟨fun c => Cert.GcnStages.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.RunValue.run_result (F := Ideal) m ρ)
    exact (Cert.KernelIdeal.ResultValue.result m ρ c).trans (Cert.GcnBridge.refOut_eq _ _ _ _ _ _ _ _).symm
  · refine (θ_run Cert.ReferenceIdeal.defs _ _).mono (fun r h c => ⟨(h c).1.trans ?_, (h c).2⟩)
      (Cert.ReferenceIdeal.Hand.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
